-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 103
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x1, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x64, .f32⟩
  | 112 => ⟨S1700000x1, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000, .f32⟩
  | 5 => ⟨S100000x1, .f32⟩
  | 6 => ⟨S100000x1, .f32⟩
  | 7 => ⟨S100000x64, .f32⟩
  | 8 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run with its result named.  The program is four pipelined regions among stretches of host
  operations; the contents of every buffer at each boundary between them are a fold from the launch memory, and the last
  boundary's contents are what the final memory holds.  So the result buffer ends at the last boundary's contents of it,
  and each argument, which nothing writes, at its launch contents.
-/
import proofs.«162010_j46986942218822_1_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting; the result buffer ends at the last boundary's contents
    and every argument as launched. -/
theorem run_result : θ_run defs (onTc (τ := τ) (main (F := F))) ⟨m, fun _ => 0, ρ⟩ (fun r => ∀ c : Dev nD,
      r.2.mem ((c.tc : Thread nD τ).loc main_v76) = W8 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v76 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KRun

end
-- ==== Proof.Spec.lean ====
/-
  The function both programs compute: two rounds of graph convolution followed by a row-wise log-softmax.

  The graph has 100000 nodes and 1600000 directed edges, given as two rows of node numbers (row 0 the source, row 1 the
  target of each edge); every node also gets a loop to itself, so there are 1700000 edges.  A node's degree is the number
  of edges that end at it, and an edge from s to t carries the weight deg(s)^(-1/2) · deg(t)^(-1/2) (a node of degree 0
  would carry 0).  One round sends a node matrix h to the matrix whose row t is the sum, over the edges that end at t, of
  the edge's weight times row s of h.  Between the rounds stand a matrix product, a bias and a maximum with zero; after
  the second round a bias and the log-softmax of each row: z − max z − log Σ exp (z − max z).

  The edge bookkeeping (which rows are gathered and where they are added) depends on the VALUES of the edge list, so it
  is kept as whole-array operations and never opened: both programs spell it with the same operations, and all that is
  ever needed of it is that equal inputs give equal outputs.  The dense steps are stated entry by entry.
-/
import proofs.«162010_j46986942218822_1_alg».proof.Proof.Gen.KernelIdeal
import Idealize.ShloMosaic.Lib.ValueIdx
import Idealize.ShloMosaic.PureOps.Ideal

noncomputable section

namespace Cert.Gcn

open Idealize.ShloMosaic Idealize.ShloMosaic.ValueIdx Cert.KernelIdeal Cert.KernelIdeal.Gen

variable {F : FTy → Type} [FloatOps F]

/-! ## The edges -/

/-- The source node of every edge: row 0 of the edge list, then the nodes 0 … 99999 for the loops. -/
def srcOf (x1 : IVec S2x1600000 32) : IVec S1700000 32 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The target node of every edge: row 1 of the edge list, then the nodes 0 … 99999 for the loops. -/
def dstOf (x1 : IVec S2x1600000 32) : IVec S1700000 32 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- A node number read the way an array index is: a negative one counts from the end. -/
def wrap (a : IVec S1700000 32) : IVec S1700000 32 :=
  select (cmpi .slt a (broadcastInDim S1700000 ![] bcast_S_S1700000 (constantI S_ 32 0#32))) (addi a (broadcastInDim S1700000 ![] bcast_S_S1700000 (constantI S_ 32 100000#32))) a

/-- Every node's degree: one added at the target of each edge. -/
def degOf (dst : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- Every node's degree to the power −1/2, and 0 where the degree is not positive. -/
def dinvOf (dst : IVec S1700000 32) : FVec F S100000 .f32 :=
  select (cmpf (F := F) .ogt (degOf dst) (broadcastInDim S100000 ![] bcast_S_S100000 (constant S_ .f32 0x00000000#32))) (Host.rsqrt (degOf dst)) (broadcastInDim S100000 ![] bcast_S_S100000 (id (constant S_ .f32 0x00000000#32)))

/-- Every edge's weight: the product of the two factors at its ends. -/
def normOf (dinv : FVec F S100000 .f32) (src dst : IVec S1700000 32) : FVec F S1700000 .f32 :=
  mulf (Host.gather gather_S100000_S1700000x1_S1700000_n_0_n_n_0_1_1 dinv (broadcastInDim S1700000x1 ![0] bcast_S1700000_S1700000x1_0 (wrap src))) (Host.gather gather_S100000_S1700000x1_S1700000_n_0_n_n_0_1_1 dinv (broadcastInDim S1700000x1 ![0] bcast_S1700000_S1700000x1_0 (wrap dst)))

/-- One round over 128 columns: row t of the result is the sum over the edges into t of weight · (row of h at the edge's source). -/
def aggr128 (dinv : FVec F S100000 .f32) (src dst : IVec S1700000 32) (h : FVec F S100000x128 .f32) : FVec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrap src))) (broadcastInDim S1700000x128 ![0, 1] bcast_S1700000x1_S1700000x128_0_1 (broadcastInDim S1700000x1 ![0] bcast_S1700000_S1700000x1_0 (normOf dinv src dst))))

/-- One round over 64 columns. -/
def aggr64 (dinv : FVec F S100000 .f32) (src dst : IVec S1700000 32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (wrap src))) (broadcastInDim S1700000x64 ![0, 1] bcast_S1700000x1_S1700000x64_0_1 (broadcastInDim S1700000x1 ![0] bcast_S1700000_S1700000x1_0 (normOf dinv src dst))))

/-- A round over 128 columns, from the edge list. -/
def agg128 (h : FVec F S100000x128 .f32) (x1 : IVec S2x1600000 32) : FVec F S100000x128 .f32 :=
  aggr128 (dinvOf (dstOf x1)) (srcOf x1) (dstOf x1) h

/-- A round over 64 columns, from the edge list. -/
def agg64 (h : FVec F S100000x64 .f32) (x1 : IVec S2x1600000 32) : FVec F S100000x64 .f32 :=
  aggr64 (dinvOf (dstOf x1)) (srcOf x1) (dstOf x1) h

/-! ## The dense steps, entry by entry, on the extended reals -/

/-- Entry (p, q) of x · w for a 128-column x and a 128 × 128 w. -/
def mm128E (x : FVec Ideal S100000x128 .f32) (w : FVec Ideal S128x128 .f32) (p : Fin 100000) (q : Fin 128) : EReal :=
  ∑ k : Fin 128, x (ix2 p k) * w (ix2 k q)
def mm128 (x : FVec Ideal S100000x128 .f32) (w : FVec Ideal S128x128 .f32) : FVec Ideal S100000x128 .f32 :=
  fun i => mm128E x w (i 0) (i 1)

/-- Entry (p, q) of x · w for a 128-column x and a 128 × 64 w. -/
def mm64E (x : FVec Ideal S100000x128 .f32) (w : FVec Ideal S128x64 .f32) (p : Fin 100000) (q : Fin 64) : EReal :=
  ∑ k : Fin 128, x (ix2 p k) * w (ix2 k q)
def mm64 (x : FVec Ideal S100000x128 .f32) (w : FVec Ideal S128x64 .f32) : FVec Ideal S100000x64 .f32 :=
  fun i => mm64E x w (i 0) (i 1)

/-- Entry (p, q) of max (h + b, 0), the bias b added to every row. -/
def breluE (h : FVec Ideal S100000x128 .f32) (b : FVec Ideal S128 .f32) (p : Fin 100000) (q : Fin 128) : EReal :=
  max (h (ix2 p q) + b (ix1 q)) (Ideal.ofBits .f32 0x00000000#32)
def brelu (h : FVec Ideal S100000x128 .f32) (b : FVec Ideal S128 .f32) : FVec Ideal S100000x128 .f32 :=
  fun i => breluE h b (i 0) (i 1)

/-- Entry (p, q) of z = h + b over 64 columns. -/
def zE (h : FVec Ideal S100000x64 .f32) (b : FVec Ideal S64 .f32) (p : Fin 100000) (q : Fin 64) : EReal :=
  h (ix2 p q) + b (ix1 q)
/-- The largest entry of row p of z (from −∞). -/
def rowMaxE (h : FVec Ideal S100000x64 .f32) (b : FVec Ideal S64 .f32) (p : Fin 100000) : EReal :=
  (Finset.univ : Finset (Fin 64)).fold max (Ideal.ofBits .f32 0xFF800000#32) (fun k => zE h b p k)
/-- Entry (p, q) of the log-softmax of the rows of z: (z − max) − log Σ exp (z − max). -/
def lsmE (h : FVec Ideal S100000x64 .f32) (b : FVec Ideal S64 .f32) (p : Fin 100000) (q : Fin 64) : EReal :=
  (zE h b p q - rowMaxE h b p) - Ideal.log (∑ k : Fin 64, Ideal.exp (zE h b p k - rowMaxE h b p))
def lsm (h : FVec Ideal S100000x64 .f32) (b : FVec Ideal S64 .f32) : FVec Ideal S100000x64 .f32 :=
  fun i => lsmE h b (i 0) (i 1)

theorem mm128_apply (x w) (p : Fin 100000) (q : Fin 128) : mm128 x w (ix2 p q) = mm128E x w p q := rfl
theorem mm64_apply (x w) (p : Fin 100000) (q : Fin 64) : mm64 x w (ix2 p q) = mm64E x w p q := rfl
theorem brelu_apply (h b) (p : Fin 100000) (q : Fin 128) : brelu h b (ix2 p q) = breluE h b p q := rfl
theorem lsm_apply (h b) (p : Fin 100000) (q : Fin 64) : lsm h b (ix2 p q) = lsmE h b p q := rfl

/-! ## The whole function -/

/-- The result, from the six inputs: x0 the node features, x1 the edge list, x2 / x3 and x4 / x5 the two layers' weights
    and biases. -/
def out (x0 : FVec Ideal S100000x128 .f32) (x1 : IVec S2x1600000 32) (x2 : FVec Ideal S128x128 .f32)
    (x3 : FVec Ideal S128 .f32) (x4 : FVec Ideal S128x64 .f32) (x5 : FVec Ideal S64 .f32) : FVec Ideal S100000x64 .f32 :=
  lsm (agg64 (mm64 (brelu (agg128 (mm128 x0 x2) x1) x3) x4) x1) x5

end Cert.Gcn

end
-- ==== Proof.LibTypedRefs.lean ====
/-
  Typed references of an inlined host function: a value moved to the buffer's own type and back is itself.

  A host function that was outlined (max(·, 0), log-softmax, …) is written over references that carry the type of the
  tensor they hold.  Each of its operations writes its result through the transport from the tensor's type to the
  buffer's type and reads each operand through the transport back, both along the equation "the buffer's type is the
  tensor's type".  When such a stretch of operations is read back as one composed term, every intermediate value is left
  wrapped in the pair: back ∘ there.  The pair is the identity for ANY typed reference (destruct the reference and
  substitute its equation), so it can be rewritten away without knowing the references.  What then remains is at most
  one transport per buffer that an operation outside the function wrote and one at the function's result, each the
  identity by computation at its literal reference over a variable value.  On a deep body (log-softmax is fifteen
  operations) removing the pairs first keeps the comparison of the composed term with its closed form a comparison of
  syntax, where leaving them in makes it unfold the operations themselves at their full extents.
-/
import Idealize.ShloMosaic.Lib.StableHlo

namespace Cert.Lib.TypedRefs

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, h2, h3⟩ := x
  subst h
  rfl

/-- To the tensor's type and back. -/
theorem toBuf_ofBuf (x : TRef sig T) (v : x.ref.ty.Contents Val) : x.toBuf (x.ofBuf v) = v := by
  obtain ⟨r, h, h2, h3⟩ := x
  subst h
  rfl

end Cert.Lib.TypedRefs
-- ==== Proof.KHost.lean ====
/-
  What every buffer the four regions stage holds when its region is entered.  The program's buffers at each boundary
  between a stretch of host operations and a region are a fold from the launch memory.  Nothing after the first stretch
  writes the edges' ends, the nodes' factors or the arguments, so each is found at every later boundary as the first
  stretch left it; each stretch's own results are its operations applied to what the boundary before it holds.
-/
import proofs.«162010_j46986942218822_1_alg».proof.Proof.Gen.KernelIdeal.Frame
import proofs.«162010_j46986942218822_1_alg».proof.Proof.Spec
import proofs.«162010_j46986942218822_1_alg».proof.Proof.LibTypedRefs

set_option maxRecDepth 16384

noncomputable section

namespace Cert.Gcn.KHost

open Cert.KernelIdeal Cert.KernelIdeal.Gen Cert.Gcn
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! The selection of degree^(-1/2) against 0 is a called function, written over references that carry their tensor's type;
    each is a literal buffer of that type, so moving a value to or from it changes nothing. -/
theorem ofBuf_main_cst_2 (h1 : (main_cst_2 : Ref sig .tc).ty = (⟨S_, .f32⟩ : BufTy)) (h2 : (main_cst_2 : Ref sig .tc).space ≠ .host) (h3 : (main_cst_2 : Ref sig .tc).isScoped = false) (v : (main_cst_2 : Ref sig .tc).ty.Contents (Elt F)) :
    (TRef.of (T := ⟨S_, .f32⟩) main_cst_2 h1 h2 h3).ofBuf v = v := rfl
theorem toBuf_main_cst_2 (h1 : (main_cst_2 : Ref sig .tc).ty = (⟨S_, .f32⟩ : BufTy)) (h2 : (main_cst_2 : Ref sig .tc).space ≠ .host) (h3 : (main_cst_2 : Ref sig .tc).isScoped = false) (v : (⟨S_, .f32⟩ : BufTy).Contents (Elt F)) :
    (TRef.of (T := ⟨S_, .f32⟩) main_cst_2 h1 h2 h3).toBuf v = v := rfl
theorem ofBuf_main_call0_v0 (h1 : (main_call0_v0 : Ref sig .tc).ty = (⟨S_, .f32⟩ : BufTy)) (h2 : (main_call0_v0 : Ref sig .tc).space ≠ .host) (h3 : (main_call0_v0 : Ref sig .tc).isScoped = false) (v : (main_call0_v0 : Ref sig .tc).ty.Contents (Elt F)) :
    (TRef.of (T := ⟨S_, .f32⟩) main_call0_v0 h1 h2 h3).ofBuf v = v := rfl
theorem toBuf_main_call0_v0 (h1 : (main_call0_v0 : Ref sig .tc).ty = (⟨S_, .f32⟩ : BufTy)) (h2 : (main_call0_v0 : Ref sig .tc).space ≠ .host) (h3 : (main_call0_v0 : Ref sig .tc).isScoped = false) (v : (⟨S_, .f32⟩ : BufTy).Contents (Elt F)) :
    (TRef.of (T := ⟨S_, .f32⟩) main_call0_v0 h1 h2 h3).toBuf v = v := rfl
theorem ofBuf_main_call0_v1 (h1 : (main_call0_v1 : Ref sig .tc).ty = (⟨S100000, .f32⟩ : BufTy)) (h2 : (main_call0_v1 : Ref sig .tc).space ≠ .host) (h3 : (main_call0_v1 : Ref sig .tc).isScoped = false) (v : (main_call0_v1 : Ref sig .tc).ty.Contents (Elt F)) :
    (TRef.of (T := ⟨S100000, .f32⟩) main_call0_v1 h1 h2 h3).ofBuf v = v := rfl
theorem toBuf_main_call0_v1 (h1 : (main_call0_v1 : Ref sig .tc).ty = (⟨S100000, .f32⟩ : BufTy)) (h2 : (main_call0_v1 : Ref sig .tc).space ≠ .host) (h3 : (main_call0_v1 : Ref sig .tc).isScoped = false) (v : (⟨S100000, .f32⟩ : BufTy).Contents (Elt F)) :
    (TRef.of (T := ⟨S100000, .f32⟩) main_call0_v1 h1 h2 h3).toBuf v = v := rfl
theorem ofBuf_main_v12 (h1 : (main_v12 : Ref sig .tc).ty = (⟨S100000, .i1⟩ : BufTy)) (h2 : (main_v12 : Ref sig .tc).space ≠ .host) (h3 : (main_v12 : Ref sig .tc).isScoped = false) (v : (main_v12 : Ref sig .tc).ty.Contents (Elt F)) :
    (TRef.of (T := ⟨S100000, .i1⟩) main_v12 h1 h2 h3).ofBuf v = v := rfl
theorem toBuf_main_v12 (h1 : (main_v12 : Ref sig .tc).ty = (⟨S100000, .i1⟩ : BufTy)) (h2 : (main_v12 : Ref sig .tc).space ≠ .host) (h3 : (main_v12 : Ref sig .tc).isScoped = false) (v : (⟨S100000, .i1⟩ : BufTy).Contents (Elt F)) :
    (TRef.of (T := ⟨S100000, .i1⟩) main_v12 h1 h2 h3).toBuf v = v := rfl
theorem ofBuf_main_v13 (h1 : (main_v13 : Ref sig .tc).ty = (⟨S100000, .f32⟩ : BufTy)) (h2 : (main_v13 : Ref sig .tc).space ≠ .host) (h3 : (main_v13 : Ref sig .tc).isScoped = false) (v : (main_v13 : Ref sig .tc).ty.Contents (Elt F)) :
    (TRef.of (T := ⟨S100000, .f32⟩) main_v13 h1 h2 h3).ofBuf v = v := rfl
theorem toBuf_main_v13 (h1 : (main_v13 : Ref sig .tc).ty = (⟨S100000, .f32⟩ : BufTy)) (h2 : (main_v13 : Ref sig .tc).space ≠ .host) (h3 : (main_v13 : Ref sig .tc).isScoped = false) (v : (⟨S100000, .f32⟩ : BufTy).Contents (Elt F)) :
    (TRef.of (T := ⟨S100000, .f32⟩) main_v13 h1 h2 h3).toBuf v = v := rfl
theorem ofBuf_main_v14 (h1 : (main_v14 : Ref sig .tc).ty = (⟨S100000, .f32⟩ : BufTy)) (h2 : (main_v14 : Ref sig .tc).space ≠ .host) (h3 : (main_v14 : Ref sig .tc).isScoped = false) (v : (main_v14 : Ref sig .tc).ty.Contents (Elt F)) :
    (TRef.of (T := ⟨S100000, .f32⟩) main_v14 h1 h2 h3).ofBuf v = v := rfl
theorem toBuf_main_v14 (h1 : (main_v14 : Ref sig .tc).ty = (⟨S100000, .f32⟩ : BufTy)) (h2 : (main_v14 : Ref sig .tc).space ≠ .host) (h3 : (main_v14 : Ref sig .tc).isScoped = false) (v : (⟨S100000, .f32⟩ : BufTy).Contents (Elt F)) :
    (TRef.of (T := ⟨S100000, .f32⟩) main_v14 h1 h2 h3).toBuf v = v := rfl

/-! ## Before the first region: the edges' ends and the nodes' factors are computed from the edge list -/

theorem W2_src (c : Dev nD) : W2 m ρ c (Proc.devRef .tc main_v3) = srcOf (m ((c : Thread nD τ).loc main_arg1)) := by
  show StableHlo.after hostOps0_1 (StableHlo.after hostOps0 (W0 m ρ c)) (Proc.devRef .tc main_v3) = _
  after_results
  rfl

theorem W2_dst (c : Dev nD) : W2 m ρ c (Proc.devRef .tc main_v6) = dstOf (m ((c : Thread nD τ).loc main_arg1)) := by
  show StableHlo.after hostOps0_1 (StableHlo.after hostOps0 (W0 m ρ c)) (Proc.devRef .tc main_v6) = _
  after_results
  rfl

theorem W2_dinv (c : Dev nD) : W2 m ρ c (Proc.devRef .tc main_v14) = dinvOf (F := F) (dstOf (m ((c : Thread nD τ).loc main_arg1))) := by
  show StableHlo.after hostOps0_1 (StableHlo.after hostOps0 (W0 m ρ c)) (Proc.devRef .tc main_v14) = _
  after_results_simp
  simp only [Cert.Lib.TypedRefs.ofBuf_toBuf, Cert.Lib.TypedRefs.toBuf_ofBuf]
  simp only [ofBuf_main_cst_2, toBuf_main_cst_2, ofBuf_main_call0_v0, toBuf_main_call0_v0, ofBuf_main_call0_v1, toBuf_main_call0_v1, ofBuf_main_v12, toBuf_main_v12, ofBuf_main_v13, toBuf_main_v13, ofBuf_main_v14, toBuf_main_v14]
  rfl

/-! The arguments are as launched. -/
theorem W2_x (c : Dev nD) : W2 m ρ c (Proc.devRef .tc main_arg0) = m ((c : Thread nD τ).loc main_arg0) := by
  show StableHlo.after hostOps0_1 (StableHlo.after hostOps0 (W0 m ρ c)) (Proc.devRef .tc main_arg0) = _
  after_results_simp
theorem W2_w1 (c : Dev nD) : W2 m ρ c (Proc.devRef .tc main_arg2) = m ((c : Thread nD τ).loc main_arg2) := by
  show StableHlo.after hostOps0_1 (StableHlo.after hostOps0 (W0 m ρ c)) (Proc.devRef .tc main_arg2) = _
  after_results_simp
theorem W2_b1 (c : Dev nD) : W2 m ρ c (Proc.devRef .tc main_arg3) = m ((c : Thread nD τ).loc main_arg3) := by
  show StableHlo.after hostOps0_1 (StableHlo.after hostOps0 (W0 m ρ c)) (Proc.devRef .tc main_arg3) = _
  after_results_simp
theorem W2_w2 (c : Dev nD) : W2 m ρ c (Proc.devRef .tc main_arg4) = m ((c : Thread nD τ).loc main_arg4) := by
  show StableHlo.after hostOps0_1 (StableHlo.after hostOps0 (W0 m ρ c)) (Proc.devRef .tc main_arg4) = _
  after_results_simp
theorem W2_b2 (c : Dev nD) : W2 m ρ c (Proc.devRef .tc main_arg5) = m ((c : Thread nD τ).loc main_arg5) := by
  show StableHlo.after hostOps0_1 (StableHlo.after hostOps0 (W0 m ρ c)) (Proc.devRef .tc main_arg5) = _
  after_results_simp

/-! ## Carried across the later boundaries -/

theorem W3_src (c : Dev nD) : W3 m ρ c (Proc.devRef .tc main_v3) = srcOf (m ((c : Thread nD τ).loc main_arg1)) :=
  (W3_of_ne m ρ c main_v3 (by decide)).trans (W2_src m ρ c)
theorem W4_src (c : Dev nD) : W4 m ρ c (Proc.devRef .tc main_v3) = srcOf (m ((c : Thread nD τ).loc main_arg1)) := by
  refine Eq.trans ?_ (W3_src m ρ c)
  show StableHlo.after hostOps1 (W3 m ρ c) (Proc.devRef .tc main_v3) = _
  after_results_simp
theorem W5_src (c : Dev nD) : W5 m ρ c (Proc.devRef .tc main_v3) = srcOf (m ((c : Thread nD τ).loc main_arg1)) :=
  (W5_of_ne m ρ c main_v3 (by decide)).trans (W4_src m ρ c)
theorem W6_src (c : Dev nD) : W6 m ρ c (Proc.devRef .tc main_v3) = srcOf (m ((c : Thread nD τ).loc main_arg1)) :=
  (W6_of_ne m ρ c main_v3 (by decide)).trans (W5_src m ρ c)

theorem W3_dst (c : Dev nD) : W3 m ρ c (Proc.devRef .tc main_v6) = dstOf (m ((c : Thread nD τ).loc main_arg1)) :=
  (W3_of_ne m ρ c main_v6 (by decide)).trans (W2_dst m ρ c)
theorem W4_dst (c : Dev nD) : W4 m ρ c (Proc.devRef .tc main_v6) = dstOf (m ((c : Thread nD τ).loc main_arg1)) := by
  refine Eq.trans ?_ (W3_dst m ρ c)
  show StableHlo.after hostOps1 (W3 m ρ c) (Proc.devRef .tc main_v6) = _
  after_results_simp
theorem W5_dst (c : Dev nD) : W5 m ρ c (Proc.devRef .tc main_v6) = dstOf (m ((c : Thread nD τ).loc main_arg1)) :=
  (W5_of_ne m ρ c main_v6 (by decide)).trans (W4_dst m ρ c)
theorem W6_dst (c : Dev nD) : W6 m ρ c (Proc.devRef .tc main_v6) = dstOf (m ((c : Thread nD τ).loc main_arg1)) :=
  (W6_of_ne m ρ c main_v6 (by decide)).trans (W5_dst m ρ c)

theorem W3_dinv (c : Dev nD) : W3 m ρ c (Proc.devRef .tc main_v14) = dinvOf (F := F) (dstOf (m ((c : Thread nD τ).loc main_arg1))) :=
  (W3_of_ne m ρ c main_v14 (by decide)).trans (W2_dinv m ρ c)
theorem W4_dinv (c : Dev nD) : W4 m ρ c (Proc.devRef .tc main_v14) = dinvOf (F := F) (dstOf (m ((c : Thread nD τ).loc main_arg1))) := by
  refine Eq.trans ?_ (W3_dinv m ρ c)
  show StableHlo.after hostOps1 (W3 m ρ c) (Proc.devRef .tc main_v14) = _
  after_results_simp
theorem W5_dinv (c : Dev nD) : W5 m ρ c (Proc.devRef .tc main_v14) = dinvOf (F := F) (dstOf (m ((c : Thread nD τ).loc main_arg1))) :=
  (W5_of_ne m ρ c main_v14 (by decide)).trans (W4_dinv m ρ c)
theorem W6_dinv (c : Dev nD) : W6 m ρ c (Proc.devRef .tc main_v14) = dinvOf (F := F) (dstOf (m ((c : Thread nD τ).loc main_arg1))) :=
  (W6_of_ne m ρ c main_v14 (by decide)).trans (W5_dinv m ρ c)

theorem W3_b1 (c : Dev nD) : W3 m ρ c (Proc.devRef .tc main_arg3) = m ((c : Thread nD τ).loc main_arg3) :=
  (W3_of_ne m ρ c main_arg3 (by decide)).trans (W2_b1 m ρ c)

theorem W3_w2 (c : Dev nD) : W3 m ρ c (Proc.devRef .tc main_arg4) = m ((c : Thread nD τ).loc main_arg4) :=
  (W3_of_ne m ρ c main_arg4 (by decide)).trans (W2_w2 m ρ c)
theorem W4_w2 (c : Dev nD) : W4 m ρ c (Proc.devRef .tc main_arg4) = m ((c : Thread nD τ).loc main_arg4) := by
  refine Eq.trans ?_ (W3_w2 m ρ c)
  show StableHlo.after hostOps1 (W3 m ρ c) (Proc.devRef .tc main_arg4) = _
  after_results_simp
theorem W5_w2 (c : Dev nD) : W5 m ρ c (Proc.devRef .tc main_arg4) = m ((c : Thread nD τ).loc main_arg4) :=
  (W5_of_ne m ρ c main_arg4 (by decide)).trans (W4_w2 m ρ c)

theorem W3_b2 (c : Dev nD) : W3 m ρ c (Proc.devRef .tc main_arg5) = m ((c : Thread nD τ).loc main_arg5) :=
  (W3_of_ne m ρ c main_arg5 (by decide)).trans (W2_b2 m ρ c)
theorem W4_b2 (c : Dev nD) : W4 m ρ c (Proc.devRef .tc main_arg5) = m ((c : Thread nD τ).loc main_arg5) := by
  refine Eq.trans ?_ (W3_b2 m ρ c)
  show StableHlo.after hostOps1 (W3 m ρ c) (Proc.devRef .tc main_arg5) = _
  after_results_simp
theorem W5_b2 (c : Dev nD) : W5 m ρ c (Proc.devRef .tc main_arg5) = m ((c : Thread nD τ).loc main_arg5) :=
  (W5_of_ne m ρ c main_arg5 (by decide)).trans (W4_b2 m ρ c)
theorem W6_b2 (c : Dev nD) : W6 m ρ c (Proc.devRef .tc main_arg5) = m ((c : Thread nD τ).loc main_arg5) :=
  (W6_of_ne m ρ c main_arg5 (by decide)).trans (W5_b2 m ρ c)

/-! ## Each later stretch's results -/

/-- The first round's sum: the stretch's operations on the first product as the first region left it. -/
theorem W4_agg (c : Dev nD) : W4 m ρ c (Proc.devRef .tc main_v43)
    = aggr128 (W3 m ρ c (Proc.devRef .tc main_v14)) (W3 m ρ c (Proc.devRef .tc main_v3)) (W3 m ρ c (Proc.devRef .tc main_v6)) (W3 m ρ c (Proc.devRef .tc main_v15)) := by
  show StableHlo.after hostOps1 (W3 m ρ c) (Proc.devRef .tc main_v43) = _
  after_results_simp
  rfl

/-- The first bias laid as a one-row matrix. -/
theorem W4_row (c : Dev nD) : W4 m ρ c (Proc.devRef .tc main_v44) = shapeCast _ (W3 m ρ c (Proc.devRef .tc main_arg3)) shapeCasts_S128_S1x128 := by
  show StableHlo.after hostOps1 (W3 m ρ c) (Proc.devRef .tc main_v44) = _
  after_results_simp
  rfl

/-- The second round's sum: the stretch's operations on the second product as the third region left it. -/
theorem W7_agg (c : Dev nD) : W7 m ρ c (Proc.devRef .tc main_v74)
    = aggr64 (W6 m ρ c (Proc.devRef .tc main_v14)) (W6 m ρ c (Proc.devRef .tc main_v3)) (W6 m ρ c (Proc.devRef .tc main_v6)) (W6 m ρ c (Proc.devRef .tc main_v46)) := by
  show StableHlo.after hostOps3 (W6 m ρ c) (Proc.devRef .tc main_v74) = _
  after_results_simp
  rfl

/-- The second bias laid as a one-row matrix. -/
theorem W7_row (c : Dev nD) : W7 m ρ c (Proc.devRef .tc main_v75) = shapeCast _ (W6 m ρ c (Proc.devRef .tc main_arg5)) shapeCasts_S64_S1x64 := by
  show StableHlo.after hostOps3 (W6 m ρ c) (Proc.devRef .tc main_v75) = _
  after_results_simp
  rfl

end Cert.Gcn.KHost

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«162010_j46986942218822_1_alg».proof.Proof.LibPlainDot
import proofs.«162010_j46986942218822_1_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.Region0.lean ====
/-
  Region 0: a matrix product tiled over the rows.  Grid point t multiplies rows 5000·t … 5000·t + 4999 of the left matrix
  by the whole right matrix; an entry of a product reads one row of the left factor, so what point t writes back is rows
  5000·t … of the product of the whole matrices, and the twenty blocks fill the result.
-/
import proofs.«162010_j46986942218822_1_alg».proof.Proof.Gen.KernelIdeal.Frame
import proofs.«162010_j46986942218822_1_alg».proof.Proof.Spec
import proofs.«162010_j46986942218822_1_alg».proof.Proof.LibDenseBias
import Idealize.ShloMosaic.Lib.Pipeline.Value

set_option maxRecDepth 16384

noncomputable section

namespace Cert.Gcn.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product at an entry: the sum over k of (left block)(p, k) · (right matrix)(k, q). -/
theorem pay_entry (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.Lib.DenseBias.dense_block_entry bitsLt_bf16_f32 _ x1 p q

/-- An entry of the left block at point t is the left array's entry at the block's place in it. -/
theorem blk_left (c : Dev nD) (t : Fin cfg0.N) (y : S5000x128.Idx) :
    iblk0 V c 0 t y = V c main_arg0 (((cfg0.win 0).blk t).view.emb y) := rfl
/-- An entry of the right block is the right array's entry at the block's place in it. -/
theorem blk_right (c : Dev nD) (t : Fin cfg0.N) (y : S128x128.Idx) :
    iblk0 V c 1 t y = V c main_arg2 (((cfg0.win 1).blk t).view.emb y) := rfl

/-- The index maps over the grid: the left and the result blocks move down with the point, the right matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole matrices. -/
theorem flushed_eq (c : Dev nD) (t : Fin cfg0.N) :
    (dat0 V c).flushed 2 t = ((cfg0.win 2).blk t).view.read (Elt Ideal) (mm128 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (pay_entry (iblk0 V c 0 t) (iblk0 V c 1 t) p q).trans ?_
  show _ = mm128E (V c main_arg0) (V c main_arg2) ((((cfg0.win 2).blk t).view.emb (ix2 p q)) 0) ((((cfg0.win 2).blk t).view.emb (ix2 p q)) 1)
  unfold mm128E
  refine Finset.sum_congr rfl fun k _ => ?_
  have hA : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hB : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [blk_left V c t (ix2 p k), blk_right V c t (ix2 k q), hA, hB]
  rfl

/-- An index of the result is in point t's block iff its row is one of the block's 5000. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Every row belongs to a block: row r to block r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The region's result array: the product of the two arrays as the region finds them. -/
theorem arr_eq (c : Dev nD) : (dat0 V c).arrAt 2 cfg0.N = mm128 (V c main_arg0) (V c main_arg2) :=
  (dat0 V c).arrAt_eq_of_cover 2 (mm128 (V c main_arg0) (V c main_arg2)) (fun t _ => flushed_eq V c t) cover

end Cert.Gcn.Region0

end
-- ==== Proof.Region1.lean ====
/-
  Region 1: the bias and the maximum with zero, tiled over the rows.  Grid point t takes rows 5000·t … 5000·t + 4999 of the
  aggregated matrix, adds the one-row bias to each and takes the maximum with zero, entry by entry; every entry of the result
  depends on the same entry of the input, so the twenty blocks are the blocks of one whole-array function and fill it.
-/
import proofs.«162010_j46986942218822_1_alg».proof.Proof.Gen.KernelIdeal.Frame
import proofs.«162010_j46986942218822_1_alg».proof.Proof.Spec
import proofs.«162010_j46986942218822_1_alg».proof.Proof.LibDenseBias
import Idealize.ShloMosaic.Lib.Pipeline.Value

set_option maxRecDepth 16384

noncomputable section

namespace Cert.Gcn.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of max (h + row, 0), the one-row matrix added to every row. -/
def breluRowE (h : FVec Ideal S100000x128 .f32) (r : FVec Ideal S1x128 .f32) (p : Fin 100000) (q : Fin 128) : EReal :=
  max (h (ix2 p q) + r (ix2 (0 : Fin 1) q)) (Ideal.ofBits .f32 0x00000000#32)
def breluRow (h : FVec Ideal S100000x128 .f32) (r : FVec Ideal S1x128 .f32) : FVec Ideal S100000x128 .f32 :=
  fun i => breluRowE h r (i 0) (i 1)

/-- The body at an entry: the block's entry plus the row's, and the maximum with zero. -/
theorem pay_entry (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  exact Cert.Lib.DenseBias.bias_relu_block_entry x0 x1 shapeCasts_S5000x128_S5000x128 shapeCasts_S1x128_S1x128 broadcasts_S1x128_S5000x128 p q

/-- An entry of the block of rows at point t is the array's entry at the block's place in it. -/
theorem blk_left (c : Dev nD) (t : Fin cfg1.N) (y : S5000x128.Idx) :
    iblk1 V c 0 t y = V c main_v43 (((cfg1.win 0).blk t).view.emb y) := rfl
/-- An entry of the one-row block is the row array's entry at the block's place in it. -/
theorem blk_right (c : Dev nD) (t : Fin cfg1.N) (y : S1x128.Idx) :
    iblk1 V c 1 t y = V c main_v44 (((cfg1.win 1).blk t).view.emb y) := rfl

/-- The index maps over the grid: the blocks of rows move down with the point, the one-row array stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A row of the input block sits in the array where the same row of the output block does. -/
theorem emb_left (t : Fin cfg1.N) (p : Fin 5000) (q k : Fin 128) :
    ((cfg1.win 0).blk t).view.emb (ix2 p k) = ix2 ((((cfg1.win 2).blk t).view.emb (ix2 p q)) 0) k := by
  obtain ⟨e0, e1, e2, e3, e4, e5⟩ := idx_facts t
  funext a; apply Fin.ext
  match a with
  | ⟨0, _⟩ => show win1_0.index t (0 : Fin 2) * 5000 + 1 * p.val = win1_2.index t (0 : Fin 2) * 5000 + 1 * p.val; omega
  | ⟨1, _⟩ => show win1_0.index t (1 : Fin 2) * 128 + 1 * k.val = k.val; omega

/-- The one row sits in its array at row 0. -/
theorem emb_right (t : Fin cfg1.N) (k : Fin 128) :
    ((cfg1.win 1).blk t).view.emb (ix2 (0 : Fin 1) k) = ix2 (0 : Fin 1) k := by
  obtain ⟨e0, e1, e2, e3, e4, e5⟩ := idx_facts t
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- The column of an entry of the output block is its own. -/
theorem emb_col (t : Fin cfg1.N) (p : Fin 5000) (q : Fin 128) :
    ((((cfg1.win 2).blk t).view.emb (ix2 p q)) 1 : Fin 128) = q := by
  obtain ⟨e0, e1, e2, e3, e4, e5⟩ := idx_facts t
  apply Fin.ext
  show win1_2.index t (1 : Fin 2) * 128 + 1 * q.val = q.val; omega

/-- What point t writes back is block t of the whole-array function. -/
theorem flushed_eq (c : Dev nD) (t : Fin cfg1.N) :
    (dat1 V c).flushed 2 t = ((cfg1.win 2).blk t).view.read (Elt Ideal) (breluRow (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_entry (iblk1 V c 0 t) (iblk1 V c 1 t) p q).trans ?_
  show _ = breluRowE (V c main_v43) (V c main_v44) ((((cfg1.win 2).blk t).view.emb (ix2 p q)) 0) ((((cfg1.win 2).blk t).view.emb (ix2 p q)) 1)
  unfold breluRowE
  simp only [blk_left V c t, blk_right V c t, emb_left t p q, emb_right t, emb_col t p q]
  rfl

/-- An index of the result is in point t's block iff its row is one of the block's 5000. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row belongs to a block: row r to block r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_2 _, ?_⟩
  rw [mem_blk]
  obtain ⟨e0, e1, e2, e3, e4, e5⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e5]; omega

/-- The region's result array: the whole-array function of the two arrays as the region finds them. -/
theorem arr_eq (c : Dev nD) : (dat1 V c).arrAt 2 cfg1.N = breluRow (V c main_v43) (V c main_v44) :=
  (dat1 V c).arrAt_eq_of_cover 2 (breluRow (V c main_v43) (V c main_v44)) (fun t _ => flushed_eq V c t) cover

end Cert.Gcn.Region1

end
-- ==== Proof.Region2.lean ====
/-
  Region 2: a matrix product tiled over the rows.  Grid point t multiplies rows 5000·t … 5000·t + 4999 of the left matrix
  by the whole right matrix; an entry of a product reads one row of the left factor, so what point t writes back is rows
  5000·t … of the product of the whole matrices, and the twenty blocks fill the result.
-/
import proofs.«162010_j46986942218822_1_alg».proof.Proof.Gen.KernelIdeal.Frame
import proofs.«162010_j46986942218822_1_alg».proof.Proof.Spec
import proofs.«162010_j46986942218822_1_alg».proof.Proof.LibDenseBias
import Idealize.ShloMosaic.Lib.Pipeline.Value

set_option maxRecDepth 16384

noncomputable section

namespace Cert.Gcn.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product at an entry: the sum over k of (left block)(p, k) · (right matrix)(k, q). -/
theorem pay_entry (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  refine (Cert.Lib.DenseBias.dense_block_entry bitsLt_bf16_f32 (shapeCast S5000x128 x0 shapeCasts_S5000x128_S5000x128) x1 p q).trans ?_
  rw [shapeCast_self]

/-- An entry of the left block at point t is the left array's entry at the block's place in it. -/
theorem blk_left (c : Dev nD) (t : Fin cfg2.N) (y : S5000x128.Idx) :
    iblk2 V c 0 t y = V c main_v45 (((cfg2.win 0).blk t).view.emb y) := rfl
/-- An entry of the right block is the right array's entry at the block's place in it. -/
theorem blk_right (c : Dev nD) (t : Fin cfg2.N) (y : S128x64.Idx) :
    iblk2 V c 1 t y = V c main_arg4 (((cfg2.win 1).blk t).view.emb y) := rfl

/-- The index maps over the grid: the left and the result blocks move down with the point, the right matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the whole matrices. -/
theorem flushed_eq (c : Dev nD) (t : Fin cfg2.N) :
    (dat2 V c).flushed 2 t = ((cfg2.win 2).blk t).view.read (Elt Ideal) (mm64 (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_entry (iblk2 V c 0 t) (iblk2 V c 1 t) p q).trans ?_
  show _ = mm64E (V c main_v45) (V c main_arg4) ((((cfg2.win 2).blk t).view.emb (ix2 p q)) 0) ((((cfg2.win 2).blk t).view.emb (ix2 p q)) 1)
  unfold mm64E
  refine Finset.sum_congr rfl fun k _ => ?_
  have hA : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hB : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [blk_left V c t (ix2 p k), blk_right V c t (ix2 k q), hA, hB]
  rfl

/-- An index of the result is in point t's block iff its row is one of the block's 5000. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every row belongs to a block: row r to block r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- The region's result array: the product of the two arrays as the region finds them. -/
theorem arr_eq (c : Dev nD) : (dat2 V c).arrAt 2 cfg2.N = mm64 (V c main_v45) (V c main_arg4) :=
  (dat2 V c).arrAt_eq_of_cover 2 (mm64 (V c main_v45) (V c main_arg4)) (fun t _ => flushed_eq V c t) cover

end Cert.Gcn.Region2

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«162010_j46986942218822_1_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«162010_j46986942218822_1_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.Region3Pay.lean ====
/-
  The last region's body at an entry.  On a block of 5000 rows of 64: add the bias row to every row (z), take each
  row's largest entry M (from −∞), and leave (z − M) − log Σ exp (z − M).
-/
import proofs.«162010_j46986942218822_1_alg».proof.Proof.Gen.KernelIdeal.Skeleton
import proofs.«162010_j46986942218822_1_alg».proof.Proof.LibRowMax
import proofs.«162010_j46986942218822_1_alg».proof.Proof.LibRowSum
import proofs.«162010_j46986942218822_1_alg».proof.Proof.LibDenseBias
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Region3Pay

open Cert.KernelIdeal Cert.KernelIdeal.Gen
open Idealize.ShloMosaic Idealize.ShloMosaic.ValueIdx

/-- Entry (p, q) of the block plus the bias row. -/
def zB (x0 : Vec Ideal S5000x64 .f32) (x1 : Vec Ideal S1x64 .f32) (p : Fin 5000) (q : Fin 64) : EReal :=
  x0 (ix2 p q) + x1 (ix2 (0 : Fin 1) q)

/-- The largest entry of row p of the block plus the bias row (from −∞). -/
def rowMax (x0 : Vec Ideal S5000x64 .f32) (x1 : Vec Ideal S1x64 .f32) (p : Fin 5000) : EReal :=
  (Finset.univ : Finset (Fin 64)).fold max (Ideal.ofBits .f32 0xFF800000#32) (fun k => zB x0 x1 p k)

/-- The exponential of a vector of extended reals, at an index. -/
private theorem exp_at {s : Shape} {φ : FTy} (a : FVec Ideal s φ) (i : s.Idx) : exp a i = Ideal.exp (a i) := rfl

/-- The logarithm of a vector of extended reals, at an index. -/
private theorem log_at {s : Shape} {φ : FTy} (a : FVec Ideal s φ) (i : s.Idx) : log a i = Ideal.log (a i) := rfl

/-- Every row's largest entry (from −∞), repeated along the row. -/
private def maxB (z : FVec Ideal S5000x64 .f32) : FVec Ideal S5000x64 .f32 :=
  broadcastTo S5000x64
    (shapeCast S5000x1 (multiReduction .maximumf [1] S5000 z 0xFF800000#32 reduces_S5000x64_S5000 (.inl rfl) rfl)
      shapeCasts_S5000_S5000x1)
    broadcasts_S5000x1_S5000x64

/-- The log-softmax chain on a block z: (z − M) − log Σ exp (z − M), M the repeated row maxima. -/
private def lsmB (z : FVec Ideal S5000x64 .f32) : FVec Ideal S5000x64 .f32 :=
  subf (subf z (maxB z))
    (broadcastTo S5000x64
      (log (shapeCast S5000x1
        (multiReduction .add [1] S5000 (exp (subf z (maxB z))) 0x00000000#32 reduces_S5000x64_S5000 (.inl rfl) rfl)
        shapeCasts_S5000_S5000x1))
      broadcasts_S5000x1_S5000x64)

/-- The repeated row maximum at an entry of row p is the fold of max over row p. -/
private theorem maxB_entry (z : FVec Ideal S5000x64 .f32) (p : Fin 5000) (k : Fin 64) :
    maxB z (ix2 p k)
      = (Finset.univ : Finset (Fin 64)).fold max (Ideal.ofBits .f32 0xFF800000#32) (fun j => z (ix2 p j)) :=
  (Cert.HostDot.broadcastTo_a1_ab_apply _ _ p k).trans (Cert.Lib.RowMax.rowmax_column z _ _ _ _ p (0 : Fin 1))

/-- The chain at an entry, for a block whose row p is the family f. -/
private theorem lsmB_entry (z : FVec Ideal S5000x64 .f32) (p : Fin 5000) (q : Fin 64) (f : Fin 64 → EReal)
    (hf : ∀ k : Fin 64, z (ix2 p k) = f k) :
    lsmB z (ix2 p q)
      = (f q - (Finset.univ : Finset (Fin 64)).fold max (Ideal.ofBits .f32 0xFF800000#32) f)
        - Ideal.log (∑ k : Fin 64, Ideal.exp (f k - (Finset.univ : Finset (Fin 64)).fold max (Ideal.ofBits .f32 0xFF800000#32) f)) := by
  obtain rfl : f = fun k => z (ix2 p k) := funext fun k => (hf k).symm
  have hd : ∀ k : Fin 64, subf z (maxB z) (ix2 p k)
      = z (ix2 p k) - (Finset.univ : Finset (Fin 64)).fold max (Ideal.ofBits .f32 0xFF800000#32) (fun j => z (ix2 p j)) :=
    fun k => (subf_apply _ _ _).trans (congrArg (fun m : EReal => z (ix2 p k) - m) (maxB_entry z p k))
  have hs : ∀ k : Fin 64, exp (subf z (maxB z)) (ix2 p k)
      = Ideal.exp (z (ix2 p k) - (Finset.univ : Finset (Fin 64)).fold max (Ideal.ofBits .f32 0xFF800000#32) (fun j => z (ix2 p j))) :=
    fun k => (exp_at _ _).trans (congrArg Ideal.exp (hd k))
  refine (subf_apply _ _ _).trans ?_
  refine congrArg₂ (fun a b : EReal => a - b) (hd q) ?_
  refine (Cert.HostDot.broadcastTo_a1_ab_apply _ _ p q).trans ((log_at _ _).trans (congrArg Ideal.log ?_))
  exact (Cert.Lib.RowSum.rowsum_column _ _ _ _ _ p (0 : Fin 1)).trans (Finset.sum_congr rfl fun k _ => hs k)

/-- The body's stored value at entry (p, q). -/
theorem pay_entry (x0 : Vec Ideal S5000x64 .f32) (x1 : Vec Ideal S1x64 .f32) (p : Fin 5000) (q : Fin 64) :
    k3_pay1 (F := Ideal) x0 x1 (ix2 p q)
      = (zB x0 x1 p q - rowMax x0 x1 p) - Ideal.log (∑ k : Fin 64, Ideal.exp (zB x0 x1 p k - rowMax x0 x1 p)) := by
  have hk : k3_pay1 (F := Ideal) x0 x1
      = lsmB (addf (shapeCast S5000x64 x0 shapeCasts_S5000x64_S5000x64)
          (broadcastTo S5000x64 (shapeCast S1x64 x1 shapeCasts_S1x64_S1x64) broadcasts_S1x64_S5000x64)) := rfl
  rw [hk]
  exact lsmB_entry _ p q (fun k => zB x0 x1 p k) (fun k => Cert.Lib.DenseBias.bias_block_entry x0 x1 _ _ _ p k)

end Cert.Gcn.Region3Pay

end
-- ==== Proof.Region3.lean ====
/-
  Region 3: the second bias and the log-softmax of every row, tiled over the rows.  Grid point t takes rows 5000·t …
  5000·t + 4999 of the second round's sum; an entry of the result depends only on its own row, which lies wholly in the
  block, so the twenty blocks are the blocks of one whole-array function and fill it.
-/
import proofs.«162010_j46986942218822_1_alg».proof.Proof.Gen.KernelIdeal.Frame
import proofs.«162010_j46986942218822_1_alg».proof.Proof.Spec
import proofs.«162010_j46986942218822_1_alg».proof.Proof.LibDenseBias
import proofs.«162010_j46986942218822_1_alg».proof.Proof.Region3Pay
import Idealize.ShloMosaic.Lib.Pipeline.Value

set_option maxRecDepth 16384

noncomputable section

namespace Cert.Gcn.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of z = h + row, the one-row matrix added to every row. -/
def zRowE (h : FVec Ideal S100000x64 .f32) (r : FVec Ideal S1x64 .f32) (p : Fin 100000) (q : Fin 64) : EReal :=
  h (ix2 p q) + r (ix2 (0 : Fin 1) q)
/-- The largest entry of row p of z (from −∞). -/
def rowMaxRowE (h : FVec Ideal S100000x64 .f32) (r : FVec Ideal S1x64 .f32) (p : Fin 100000) : EReal :=
  (Finset.univ : Finset (Fin 64)).fold max (Ideal.ofBits .f32 0xFF800000#32) (fun k => zRowE h r p k)
/-- Entry (p, q) of the log-softmax of the rows of z. -/
def lsmRowE (h : FVec Ideal S100000x64 .f32) (r : FVec Ideal S1x64 .f32) (p : Fin 100000) (q : Fin 64) : EReal :=
  (zRowE h r p q - rowMaxRowE h r p) - Ideal.log (∑ k : Fin 64, Ideal.exp (zRowE h r p k - rowMaxRowE h r p))
def lsmRow (h : FVec Ideal S100000x64 .f32) (r : FVec Ideal S1x64 .f32) : FVec Ideal S100000x64 .f32 :=
  fun i => lsmRowE h r (i 0) (i 1)

/-- The body at an entry: the log-softmax of the block's row plus the bias row. -/
theorem pay_entry (x0 : Vec Ideal S5000x64 .f32) (x1 : Vec Ideal S1x64 .f32) (p : Fin 5000) (q : Fin 64) :
    k3_pay1 (F := Ideal) x0 x1 (ix2 p q)
      = (Cert.Gcn.Region3Pay.zB x0 x1 p q - Cert.Gcn.Region3Pay.rowMax x0 x1 p) - Ideal.log (∑ k : Fin 64, Ideal.exp (Cert.Gcn.Region3Pay.zB x0 x1 p k - Cert.Gcn.Region3Pay.rowMax x0 x1 p)) :=
  Cert.Gcn.Region3Pay.pay_entry x0 x1 p q

/-- An entry of the block of rows at point t is the array's entry at the block's place in it. -/
theorem blk_left (c : Dev nD) (t : Fin cfg3.N) (y : S5000x64.Idx) :
    iblk3 V c 0 t y = V c main_v74 (((cfg3.win 0).blk t).view.emb y) := rfl
/-- An entry of the one-row block is the row array's entry at the block's place in it. -/
theorem blk_right (c : Dev nD) (t : Fin cfg3.N) (y : S1x64.Idx) :
    iblk3 V c 1 t y = V c main_v75 (((cfg3.win 1).blk t).view.emb y) := rfl

/-- The index maps over the grid: the blocks of rows move down with the point, the one-row array stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A row of the input block sits in the array where the same row of the output block does. -/
theorem emb_left (t : Fin cfg3.N) (p : Fin 5000) (q k : Fin 64) :
    ((cfg3.win 0).blk t).view.emb (ix2 p k) = ix2 ((((cfg3.win 2).blk t).view.emb (ix2 p q)) 0) k := by
  obtain ⟨e0, e1, e2, e3, e4, e5⟩ := idx_facts t
  funext a; apply Fin.ext
  match a with
  | ⟨0, _⟩ => show win3_0.index t (0 : Fin 2) * 5000 + 1 * p.val = win3_2.index t (0 : Fin 2) * 5000 + 1 * p.val; omega
  | ⟨1, _⟩ => show win3_0.index t (1 : Fin 2) * 64 + 1 * k.val = k.val; omega

/-- The one row sits in its array at row 0. -/
theorem emb_right (t : Fin cfg3.N) (k : Fin 64) :
    ((cfg3.win 1).blk t).view.emb (ix2 (0 : Fin 1) k) = ix2 (0 : Fin 1) k := by
  obtain ⟨e0, e1, e2, e3, e4, e5⟩ := idx_facts t
  funext a; apply Fin.ext
  match a with
  | ⟨0, _⟩ => show win3_1.index t (0 : Fin 2) * 1 + 1 * 0 = 0; omega
  | ⟨1, _⟩ => show win3_1.index t (1 : Fin 2) * 64 + 1 * k.val = k.val; omega

/-- The column of an entry of the output block is its own. -/
theorem emb_col (t : Fin cfg3.N) (p : Fin 5000) (q : Fin 64) :
    ((((cfg3.win 2).blk t).view.emb (ix2 p q)) 1 : Fin 64) = q := by
  obtain ⟨e0, e1, e2, e3, e4, e5⟩ := idx_facts t
  apply Fin.ext
  show win3_2.index t (1 : Fin 2) * 64 + 1 * q.val = q.val; omega

/-- What point t writes back is block t of the whole-array function. -/
theorem flushed_eq (c : Dev nD) (t : Fin cfg3.N) :
    (dat3 V c).flushed 2 t = ((cfg3.win 2).blk t).view.read (Elt Ideal) (lsmRow (V c main_v74) (V c main_v75)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_entry (iblk3 V c 0 t) (iblk3 V c 1 t) p q).trans ?_
  show _ = lsmRowE (V c main_v74) (V c main_v75) ((((cfg3.win 2).blk t).view.emb (ix2 p q)) 0) ((((cfg3.win 2).blk t).view.emb (ix2 p q)) 1)
  rw [emb_col t p q]
  -- entry k of the block's row plus the bias row is entry k of the array's row plus the bias row
  have hzk : ∀ k : Fin 64, Cert.Gcn.Region3Pay.zB (iblk3 V c 0 t) (iblk3 V c 1 t) p k
      = zRowE (V c main_v74) (V c main_v75) ((((cfg3.win 2).blk t).view.emb (ix2 p q)) 0) k := by
    intro k
    unfold Cert.Gcn.Region3Pay.zB zRowE
    simp only [blk_left V c t, blk_right V c t, emb_left t p q, emb_right t]
    rfl
  unfold lsmRowE rowMaxRowE Cert.Gcn.Region3Pay.rowMax
  simp only [hzk]

/-- An index of the result is in point t's block iff its row is one of the block's 5000. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v76).slice (win3_2.rect t)).set ↔ _
  rw [View.set_slice_whole, Rect.mem_set_unit]
  exact Iff.rfl

/-- Every row belongs to a block: row r to block r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  rw [mem_blk]
  obtain ⟨e0, e1, e2, e3, e4, e5⟩ := idx_facts ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e5]; omega

/-- The region's result array: the whole-array function of the two arrays as the region finds them. -/
theorem arr_eq (c : Dev nD) : (dat3 V c).arrAt 2 cfg3.N = lsmRow (V c main_v74) (V c main_v75) :=
  (dat3 V c).arrAt_eq_of_cover 2 (lsmRow (V c main_v74) (V c main_v75)) (fun t _ => flushed_eq V c t) cover

end Cert.Gcn.Region3

end
-- ==== Proof.KValue.lean ====
/-
  The idealized kernel's result as one function of its arguments.  Follow the result buffer back through the program's
  boundaries: the last region's array is the log-softmax (with the second bias) of the second round's sum; that sum is
  the edge operations applied to the third region's product; that product's left factor is the second region's maximum
  with zero of the first round's sum plus the first bias; and the first round's sum is the edge operations applied to
  the first region's product of the node features by the first weights.  At every step the region's array is the
  whole-array function of what the region finds (the blocks fill it), and what it finds is what the stretch before it
  computed from buffers that nothing has written since.
-/
import proofs.«162010_j46986942218822_1_alg».proof.Proof.Gen.KernelIdeal.Frame
import proofs.«162010_j46986942218822_1_alg».proof.Proof.Spec
import proofs.«162010_j46986942218822_1_alg».proof.Proof.KHost
import proofs.«162010_j46986942218822_1_alg».proof.Proof.Region0
import proofs.«162010_j46986942218822_1_alg».proof.Proof.Region1
import proofs.«162010_j46986942218822_1_alg».proof.Proof.Region2
import proofs.«162010_j46986942218822_1_alg».proof.Proof.Region3
import Idealize.ShloMosaic.Lib.ValueLayout

set_option maxRecDepth 16384

noncomputable section

namespace Cert.Gcn.KValue

open Cert.KernelIdeal Cert.KernelIdeal.Gen Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg)

/-- A bias vector laid as a one-row matrix and added to every row is the bias added entry by entry (128 columns, with
    the maximum with zero). -/
theorem breluRow_row (h : FVec Ideal S100000x128 .f32) (b : FVec Ideal S128 .f32) :
    Region1.breluRow h (shapeCast S1x128 b shapeCasts_S128_S1x128) = brelu h b := by
  funext i
  obtain ⟨p, q, rfl⟩ : ∃ (p : Fin 100000) (q : Fin 128), i = ix2 p q := ⟨i 0, i 1, eq_ix2 i⟩
  show Region1.breluRowE h _ p q = breluE h b p q
  unfold Region1.breluRowE breluE
  rw [shapeCast_a_1a_apply]

/-- The same for the log-softmax over 64 columns. -/
theorem lsmRow_row (h : FVec Ideal S100000x64 .f32) (b : FVec Ideal S64 .f32) :
    Region3.lsmRow h (shapeCast S1x64 b shapeCasts_S64_S1x64) = lsm h b := by
  funext i
  obtain ⟨p, q, rfl⟩ : ∃ (p : Fin 100000) (q : Fin 64), i = ix2 p q := ⟨i 0, i 1, eq_ix2 i⟩
  show Region3.lsmRowE h _ p q = lsmE h b p q
  unfold Region3.lsmRowE Region3.rowMaxRowE Region3.zRowE lsmE rowMaxE zE
  simp only [shapeCast_a_1a_apply]

/-- After the first region: the product of the node features by the first weights. -/
theorem first_product (c : Dev nD) : W3 m ρ c (Proc.devRef .tc main_v15) = mm128 (m ((c : Thread nD τ).loc main_arg0)) (m ((c : Thread nD τ).loc main_arg2)) := by
  refine (W3_arr m ρ c 2).trans ?_
  rw [Region0.arr_eq (V2 m ρ) c]
  show mm128 (W2 m ρ c (Proc.devRef .tc main_arg0)) (W2 m ρ c (Proc.devRef .tc main_arg2)) = _
  rw [KHost.W2_x m ρ c, KHost.W2_w1 m ρ c]

/-- The first round's sum. -/
theorem first_round (c : Dev nD) : W4 m ρ c (Proc.devRef .tc main_v43) = agg128 (mm128 (m ((c : Thread nD τ).loc main_arg0)) (m ((c : Thread nD τ).loc main_arg2))) (m ((c : Thread nD τ).loc main_arg1)) := by
  rw [KHost.W4_agg m ρ c, KHost.W3_dinv m ρ c, KHost.W3_src m ρ c, KHost.W3_dst m ρ c, first_product m ρ c]
  rfl

/-- The first bias as a one-row matrix. -/
theorem first_bias (c : Dev nD) : W4 m ρ c (Proc.devRef .tc main_v44) = shapeCast S1x128 (m ((c : Thread nD τ).loc main_arg3)) shapeCasts_S128_S1x128 := by
  rw [KHost.W4_row m ρ c, KHost.W3_b1 m ρ c]

/-- After the second region: the hidden layer. -/
theorem hidden (c : Dev nD) : W5 m ρ c (Proc.devRef .tc main_v45) = brelu (agg128 (mm128 (m ((c : Thread nD τ).loc main_arg0)) (m ((c : Thread nD τ).loc main_arg2))) (m ((c : Thread nD τ).loc main_arg1))) (m ((c : Thread nD τ).loc main_arg3)) := by
  refine (W5_arr m ρ c 2).trans ?_
  rw [Region1.arr_eq (V4 m ρ) c]
  show Region1.breluRow (W4 m ρ c (Proc.devRef .tc main_v43)) (W4 m ρ c (Proc.devRef .tc main_v44)) = _
  rw [first_round m ρ c, first_bias m ρ c, breluRow_row]

/-- After the third region: the product of the hidden layer by the second weights. -/
theorem second_product (c : Dev nD) : W6 m ρ c (Proc.devRef .tc main_v46) = mm64 (brelu (agg128 (mm128 (m ((c : Thread nD τ).loc main_arg0)) (m ((c : Thread nD τ).loc main_arg2))) (m ((c : Thread nD τ).loc main_arg1))) (m ((c : Thread nD τ).loc main_arg3))) (m ((c : Thread nD τ).loc main_arg4)) := by
  refine (W6_arr m ρ c 2).trans ?_
  rw [Region2.arr_eq (V5 m ρ) c]
  show mm64 (W5 m ρ c (Proc.devRef .tc main_v45)) (W5 m ρ c (Proc.devRef .tc main_arg4)) = _
  rw [hidden m ρ c, KHost.W5_w2 m ρ c]

/-- The second round's sum. -/
theorem second_round (c : Dev nD) : W7 m ρ c (Proc.devRef .tc main_v74) = agg64 (mm64 (brelu (agg128 (mm128 (m ((c : Thread nD τ).loc main_arg0)) (m ((c : Thread nD τ).loc main_arg2))) (m ((c : Thread nD τ).loc main_arg1))) (m ((c : Thread nD τ).loc main_arg3))) (m ((c : Thread nD τ).loc main_arg4))) (m ((c : Thread nD τ).loc main_arg1)) := by
  rw [KHost.W7_agg m ρ c, KHost.W6_dinv m ρ c, KHost.W6_src m ρ c, KHost.W6_dst m ρ c, second_product m ρ c]
  rfl

/-- The second bias as a one-row matrix. -/
theorem second_bias (c : Dev nD) : W7 m ρ c (Proc.devRef .tc main_v75) = shapeCast S1x64 (m ((c : Thread nD τ).loc main_arg5)) shapeCasts_S64_S1x64 := by
  rw [KHost.W7_row m ρ c, KHost.W6_b2 m ρ c]

/-- The result buffer at the last boundary is the common function of the six arguments. -/
theorem result (c : Dev nD) : W8 m ρ c (Proc.devRef .tc main_v76)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  rw [Region3.arr_eq (V7 m ρ) c]
  show Region3.lsmRow (W7 m ρ c (Proc.devRef .tc main_v74)) (W7 m ρ c (Proc.devRef .tc main_v75)) = _
  rw [second_round m ρ c, second_bias m ρ c, lsmRow_row]
  rfl

end Cert.Gcn.KValue

end
-- ==== Proof.RefSpec.lean ====
/-
  The reference program's own spelling of the two-round graph convolution: the same whole-array operations as in the
  common specification, over the reference program's shape records, so that its run can be met by syntax alone; and its
  last step, the log-softmax of each row of z = (second round) + bias, as the host spells it:
  z − (row maximum, from −∞, broadcast) − (log of the row sum of exp (z − row maximum), broadcast).
-/
import proofs.«162010_j46986942218822_1_alg».proof.Proof.Gen.ReferenceIdeal
import Idealize.ShloMosaic.Lib.ValueIdx
import Idealize.ShloMosaic.PureOps.Ideal

noncomputable section

namespace Cert.Gcn.Ref

open Idealize.ShloMosaic Idealize.ShloMosaic.ValueIdx Cert.ReferenceIdeal Cert.ReferenceIdeal.Gen

variable {F : FTy → Type} [FloatOps F]

/-! ## The edges -/

/-- The source node of every edge: row 0 of the edge list, then the nodes 0 … 99999 for the loops. -/
def srcOf (x1 : IVec S2x1600000 32) : IVec S1700000 32 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The target node of every edge: row 1 of the edge list, then the nodes 0 … 99999 for the loops. -/
def dstOf (x1 : IVec S2x1600000 32) : IVec S1700000 32 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- A node number read the way an array index is: a negative one counts from the end. -/
def wrap (a : IVec S1700000 32) : IVec S1700000 32 :=
  select (cmpi .slt a (broadcastInDim S1700000 ![] bcast_S_S1700000 (constantI S_ 32 0#32))) (addi a (broadcastInDim S1700000 ![] bcast_S_S1700000 (constantI S_ 32 100000#32))) a

/-- Every node's degree: one added at the target of each edge. -/
def degOf (dst : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- Every node's degree to the power −1/2, and 0 where the degree is not positive. -/
def dinvOf (dst : IVec S1700000 32) : FVec F S100000 .f32 :=
  select (cmpf (F := F) .ogt (degOf dst) (broadcastInDim S100000 ![] bcast_S_S100000 (constant S_ .f32 0x00000000#32))) (Host.rsqrt (degOf dst)) (broadcastInDim S100000 ![] bcast_S_S100000 (id (constant S_ .f32 0x00000000#32)))

/-- Every edge's weight: the product of the two factors at its ends. -/
def normOf (dinv : FVec F S100000 .f32) (src dst : IVec S1700000 32) : FVec F S1700000 .f32 :=
  mulf (Host.gather gather_S100000_S1700000x1_S1700000_n_0_n_n_0_1_1 dinv (broadcastInDim S1700000x1 ![0] bcast_S1700000_S1700000x1_0 (wrap src))) (Host.gather gather_S100000_S1700000x1_S1700000_n_0_n_n_0_1_1 dinv (broadcastInDim S1700000x1 ![0] bcast_S1700000_S1700000x1_0 (wrap dst)))

/-- One round over 128 columns: row t of the result is the sum over the edges into t of weight · (row of h at the edge's source). -/
def aggr128 (dinv : FVec F S100000 .f32) (src dst : IVec S1700000 32) (h : FVec F S100000x128 .f32) : FVec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrap src))) (broadcastInDim S1700000x128 ![0, 1] bcast_S1700000x1_S1700000x128_0_1 (broadcastInDim S1700000x1 ![0] bcast_S1700000_S1700000x1_0 (normOf dinv src dst))))

/-- One round over 64 columns. -/
def aggr64 (dinv : FVec F S100000 .f32) (src dst : IVec S1700000 32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (wrap src))) (broadcastInDim S1700000x64 ![0, 1] bcast_S1700000x1_S1700000x64_0_1 (broadcastInDim S1700000x1 ![0] bcast_S1700000_S1700000x1_0 (normOf dinv src dst))))

/-- A round over 128 columns, from the edge list. -/
def agg128 (h : FVec F S100000x128 .f32) (x1 : IVec S2x1600000 32) : FVec F S100000x128 .f32 :=
  aggr128 (dinvOf (dstOf x1)) (srcOf x1) (dstOf x1) h

/-- A round over 64 columns, from the edge list. -/
def agg64 (h : FVec F S100000x64 .f32) (x1 : IVec S2x1600000 32) : FVec F S100000x64 .f32 :=
  aggr64 (dinvOf (dstOf x1)) (srcOf x1) (dstOf x1) h

/-! ## The dense steps as the host spells them -/

/-- A 128-entry bias laid under every one of the 100000 rows. -/
def biasRows128 (x3 : FVec F S128 .f32) : FVec F S100000x128 .f32 :=
  broadcastInDim S100000x128 ![0, 1] bcast_S1x128_S100000x128_0_1 (broadcastInDim S1x128 ![1] bcast_S128_S1x128_1 x3)

/-- A 64-entry bias laid under every one of the 100000 rows. -/
def biasRows64 (x5 : FVec F S64 .f32) : FVec F S100000x64 .f32 :=
  broadcastInDim S100000x64 ![0, 1] bcast_S1x64_S100000x64_0_1 (broadcastInDim S1x64 ![1] bcast_S64_S1x64_1 x5)

/-- Every row's maximum (from −∞), repeated along the row. -/
def rowMaxB (z : FVec F S100000x64 .f32) : FVec F S100000x64 .f32 :=
  broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x64_S100000_d1 h_S_)))

/-- The log-softmax of every row. -/
def lsmHost (z : FVec F S100000x64 .f32) : FVec F S100000x64 .f32 :=
  subf (subf z (rowMaxB z)) (broadcastInDim S100000x64 ![0, 1] bcast_S100000x1_S100000x64_0_1 (Host.log (broadcastInDim S100000x1 ![0] bcast_S100000_S100000x1_0 (Host.reduceAdd (Host.exp (subf z (rowMaxB z))) (constant S_ .f32 0x00000000#32) reducesTo_S100000x64_S100000_d1 h_S_))))

/-- The first layer's output: max (round (x0 · x2) + bias, 0). -/
def hidden (x0 : FVec F S100000x128 .f32) (x1 : IVec S2x1600000 32) (x2 : FVec F S128x128 .f32) (x3 : FVec F S128 .f32) : FVec F S100000x128 .f32 :=
  maximumf (addf (agg128 (Host.dotGeneral dot_S100000x128_S128x128_S100000x128_1_0_0_1_n_n none x0 x2) x1) (biasRows128 x3)) (broadcastInDim S100000x128 ![] bcast_S_S100000x128 (constant S_ .f32 0x00000000#32))

/-- The whole reference, from the six inputs. -/
def refOut (x0 : FVec F S100000x128 .f32) (x1 : IVec S2x1600000 32) (x2 : FVec F S128x128 .f32)
    (x3 : FVec F S128 .f32) (x4 : FVec F S128x64 .f32) (x5 : FVec F S64 .f32) : FVec F S100000x64 .f32 :=
  lsmHost (addf (agg64 (Host.dotGeneral dot_S100000x128_S128x64_S100000x64_1_0_0_1_n_n none (hidden x0 x1 x2 x3) x4) x1) (biasRows64 x5))

end Cert.Gcn.Ref

end
-- ==== Proof.RefRun.lean ====
/-
  The reference program's run, read back.  The reference is a straight line of 131 host operations; four stretches of it
  are the bodies of called functions (the two selections of degree^(-1/2) against 0, the maximum with zero, the
  log-softmax), written over references that carry their tensor's type.  Every weakly fair execution terminates with each
  buffer at the composition of the operations that wrote it, applied to the launch contents of the arguments.  Read at
  the result buffer that composition is, operation for operation, the reference's spelling of the two-round graph
  convolution (RefSpec): a value carried into a called function's reference and back out is itself, so once those pairs
  are removed the two terms are the same syntax.  The arguments end as launched, since nothing writes them.
-/
import proofs.«162010_j46986942218822_1_alg».proof.Proof.Gen.ReferenceIdeal
import Idealize.ShloMosaic.Lib.StableHlo.Run
import proofs.«162010_j46986942218822_1_alg».proof.Proof.RefSpec
import proofs.«162010_j46986942218822_1_alg».proof.Proof.LibTypedRefs

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 131 operations, in order (a called function's operations stand in its call's place, spelt `TRef.…`). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x64 ![0, 1] bcast_S1700000x1_S1700000x64_0_1 : (⟨S1700000x1, .f32⟩ : BufTy).Contents (Elt F) → (⟨S1700000x64, .f32⟩ : BufTy).Contents (Elt F)),
    binary main_v78 main_v80 main_v81 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v82 (broadcastInDim S100000x64 ![] bcast_S_S100000x64 : (⟨S_, .f32⟩ : BufTy).Contents (Elt F) → (⟨S100000x64, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0xFF800000#32),
    TRef.binary (TRef.of (T := ⟨S100000x64, .f32⟩) main_v87) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v87) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v88) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! Each typed reference of a called function is a literal buffer whose type is the tensor's by computation: moving a value
    to or from it changes nothing. -/
theorem ofBuf_main_cst_2 (h1 : (main_cst_2 : Ref sig .tc).ty = (⟨S_, .f32⟩ : BufTy)) (h2 : (main_cst_2 : Ref sig .tc).space ≠ .host) (h3 : (main_cst_2 : Ref sig .tc).isScoped = false) (v : (main_cst_2 : Ref sig .tc).ty.Contents (Elt F)) :
    (TRef.of (T := ⟨S_, .f32⟩) main_cst_2 h1 h2 h3).ofBuf v = v := rfl
theorem toBuf_main_cst_2 (h1 : (main_cst_2 : Ref sig .tc).ty = (⟨S_, .f32⟩ : BufTy)) (h2 : (main_cst_2 : Ref sig .tc).space ≠ .host) (h3 : (main_cst_2 : Ref sig .tc).isScoped = false) (v : (⟨S_, .f32⟩ : BufTy).Contents (Elt F)) :
    (TRef.of (T := ⟨S_, .f32⟩) main_cst_2 h1 h2 h3).toBuf v = v := rfl
theorem ofBuf_main_call0_v0 (h1 : (main_call0_v0 : Ref sig .tc).ty = (⟨S_, .f32⟩ : BufTy)) (h2 : (main_call0_v0 : Ref sig .tc).space ≠ .host) (h3 : (main_call0_v0 : Ref sig .tc).isScoped = false) (v : (main_call0_v0 : Ref sig .tc).ty.Contents (Elt F)) :
    (TRef.of (T := ⟨S_, .f32⟩) main_call0_v0 h1 h2 h3).ofBuf v = v := rfl
theorem toBuf_main_call0_v0 (h1 : (main_call0_v0 : Ref sig .tc).ty = (⟨S_, .f32⟩ : BufTy)) (h2 : (main_call0_v0 : Ref sig .tc).space ≠ .host) (h3 : (main_call0_v0 : Ref sig .tc).isScoped = false) (v : (⟨S_, .f32⟩ : BufTy).Contents (Elt F)) :
    (TRef.of (T := ⟨S_, .f32⟩) main_call0_v0 h1 h2 h3).toBuf v = v := rfl
theorem ofBuf_main_call0_v1 (h1 : (main_call0_v1 : Ref sig .tc).ty = (⟨S100000, .f32⟩ : BufTy)) (h2 : (main_call0_v1 : Ref sig .tc).space ≠ .host) (h3 : (main_call0_v1 : Ref sig .tc).isScoped = false) (v : (main_call0_v1 : Ref sig .tc).ty.Contents (Elt F)) :
    (TRef.of (T := ⟨S100000, .f32⟩) main_call0_v1 h1 h2 h3).ofBuf v = v := rfl
theorem toBuf_main_call0_v1 (h1 : (main_call0_v1 : Ref sig .tc).ty = (⟨S100000, .f32⟩ : BufTy)) (h2 : (main_call0_v1 : Ref sig .tc).space ≠ .host) (h3 : (main_call0_v1 : Ref sig .tc).isScoped = false) (v : (⟨S100000, .f32⟩ : BufTy).Contents (Elt F)) :
    (TRef.of (T := ⟨S100000, .f32⟩) main_call0_v1 h1 h2 h3).toBuf v = v := rfl
theorem ofBuf_main_v13 (h1 : (main_v13 : Ref sig .tc).ty = (⟨S100000, .i1⟩ : BufTy)) (h2 : (main_v13 : Ref sig .tc).space ≠ .host) (h3 : (main_v13 : Ref sig .tc).isScoped = false) (v : (main_v13 : Ref sig .tc).ty.Contents (Elt F)) :
    (TRef.of (T := ⟨S100000, .i1⟩) main_v13 h1 h2 h3).ofBuf v = v := rfl
theorem toBuf_main_v13 (h1 : (main_v13 : Ref sig .tc).ty = (⟨S100000, .i1⟩ : BufTy)) (h2 : (main_v13 : Ref sig .tc).space ≠ .host) (h3 : (main_v13 : Ref sig .tc).isScoped = false) (v : (⟨S100000, .i1⟩ : BufTy).Contents (Elt F)) :
    (TRef.of (T := ⟨S100000, .i1⟩) main_v13 h1 h2 h3).toBuf v = v := rfl
theorem ofBuf_main_v14 (h1 : (main_v14 : Ref sig .tc).ty = (⟨S100000, .f32⟩ : BufTy)) (h2 : (main_v14 : Ref sig .tc).space ≠ .host) (h3 : (main_v14 : Ref sig .tc).isScoped = false) (v : (main_v14 : Ref sig .tc).ty.Contents (Elt F)) :
    (TRef.of (T := ⟨S100000, .f32⟩) main_v14 h1 h2 h3).ofBuf v = v := rfl
theorem toBuf_main_v14 (h1 : (main_v14 : Ref sig .tc).ty = (⟨S100000, .f32⟩ : BufTy)) (h2 : (main_v14 : Ref sig .tc).space ≠ .host) (h3 : (main_v14 : Ref sig .tc).isScoped = false) (v : (⟨S100000, .f32⟩ : BufTy).Contents (Elt F)) :
    (TRef.of (T := ⟨S100000, .f32⟩) main_v14 h1 h2 h3).toBuf v = v := rfl
theorem ofBuf_main_v15 (h1 : (main_v15 : Ref sig .tc).ty = (⟨S100000, .f32⟩ : BufTy)) (h2 : (main_v15 : Ref sig .tc).space ≠ .host) (h3 : (main_v15 : Ref sig .tc).isScoped = false) (v : (main_v15 : Ref sig .tc).ty.Contents (Elt F)) :
    (TRef.of (T := ⟨S100000, .f32⟩) main_v15 h1 h2 h3).ofBuf v = v := rfl
theorem toBuf_main_v15 (h1 : (main_v15 : Ref sig .tc).ty = (⟨S100000, .f32⟩ : BufTy)) (h2 : (main_v15 : Ref sig .tc).space ≠ .host) (h3 : (main_v15 : Ref sig .tc).isScoped = false) (v : (⟨S100000, .f32⟩ : BufTy).Contents (Elt F)) :
    (TRef.of (T := ⟨S100000, .f32⟩) main_v15 h1 h2 h3).toBuf v = v := rfl
theorem ofBuf_main_call1_cst (h1 : (main_call1_cst : Ref sig .tc).ty = (⟨S_, .f32⟩ : BufTy)) (h2 : (main_call1_cst : Ref sig .tc).space ≠ .host) (h3 : (main_call1_cst : Ref sig .tc).isScoped = false) (v : (main_call1_cst : Ref sig .tc).ty.Contents (Elt F)) :
    (TRef.of (T := ⟨S_, .f32⟩) main_call1_cst h1 h2 h3).ofBuf v = v := rfl
theorem toBuf_main_call1_cst (h1 : (main_call1_cst : Ref sig .tc).ty = (⟨S_, .f32⟩ : BufTy)) (h2 : (main_call1_cst : Ref sig .tc).space ≠ .host) (h3 : (main_call1_cst : Ref sig .tc).isScoped = false) (v : (⟨S_, .f32⟩ : BufTy).Contents (Elt F)) :
    (TRef.of (T := ⟨S_, .f32⟩) main_call1_cst h1 h2 h3).toBuf v = v := rfl
theorem ofBuf_main_call1_v0 (h1 : (main_call1_v0 : Ref sig .tc).ty = (⟨S100000x128, .f32⟩ : BufTy)) (h2 : (main_call1_v0 : Ref sig .tc).space ≠ .host) (h3 : (main_call1_v0 : Ref sig .tc).isScoped = false) (v : (main_call1_v0 : Ref sig .tc).ty.Contents (Elt F)) :
    (TRef.of (T := ⟨S100000x128, .f32⟩) main_call1_v0 h1 h2 h3).ofBuf v = v := rfl
theorem toBuf_main_call1_v0 (h1 : (main_call1_v0 : Ref sig .tc).ty = (⟨S100000x128, .f32⟩ : BufTy)) (h2 : (main_call1_v0 : Ref sig .tc).space ≠ .host) (h3 : (main_call1_v0 : Ref sig .tc).isScoped = false) (v : (⟨S100000x128, .f32⟩ : BufTy).Contents (Elt F)) :
    (TRef.of (T := ⟨S100000x128, .f32⟩) main_call1_v0 h1 h2 h3).toBuf v = v := rfl
theorem ofBuf_main_v46 (h1 : (main_v46 : Ref sig .tc).ty = (⟨S100000x128, .f32⟩ : BufTy)) (h2 : (main_v46 : Ref sig .tc).space ≠ .host) (h3 : (main_v46 : Ref sig .tc).isScoped = false) (v : (main_v46 : Ref sig .tc).ty.Contents (Elt F)) :
    (TRef.of (T := ⟨S100000x128, .f32⟩) main_v46 h1 h2 h3).ofBuf v = v := rfl
theorem toBuf_main_v46 (h1 : (main_v46 : Ref sig .tc).ty = (⟨S100000x128, .f32⟩ : BufTy)) (h2 : (main_v46 : Ref sig .tc).space ≠ .host) (h3 : (main_v46 : Ref sig .tc).isScoped = false) (v : (⟨S100000x128, .f32⟩ : BufTy).Contents (Elt F)) :
    (TRef.of (T := ⟨S100000x128, .f32⟩) main_v46 h1 h2 h3).toBuf v = v := rfl
theorem ofBuf_main_v47 (h1 : (main_v47 : Ref sig .tc).ty = (⟨S100000x128, .f32⟩ : BufTy)) (h2 : (main_v47 : Ref sig .tc).space ≠ .host) (h3 : (main_v47 : Ref sig .tc).isScoped = false) (v : (main_v47 : Ref sig .tc).ty.Contents (Elt F)) :
    (TRef.of (T := ⟨S100000x128, .f32⟩) main_v47 h1 h2 h3).ofBuf v = v := rfl
theorem toBuf_main_v47 (h1 : (main_v47 : Ref sig .tc).ty = (⟨S100000x128, .f32⟩ : BufTy)) (h2 : (main_v47 : Ref sig .tc).space ≠ .host) (h3 : (main_v47 : Ref sig .tc).isScoped = false) (v : (⟨S100000x128, .f32⟩ : BufTy).Contents (Elt F)) :
    (TRef.of (T := ⟨S100000x128, .f32⟩) main_v47 h1 h2 h3).toBuf v = v := rfl
theorem ofBuf_main_cst_12 (h1 : (main_cst_12 : Ref sig .tc).ty = (⟨S_, .f32⟩ : BufTy)) (h2 : (main_cst_12 : Ref sig .tc).space ≠ .host) (h3 : (main_cst_12 : Ref sig .tc).isScoped = false) (v : (main_cst_12 : Ref sig .tc).ty.Contents (Elt F)) :
    (TRef.of (T := ⟨S_, .f32⟩) main_cst_12 h1 h2 h3).ofBuf v = v := rfl
theorem toBuf_main_cst_12 (h1 : (main_cst_12 : Ref sig .tc).ty = (⟨S_, .f32⟩ : BufTy)) (h2 : (main_cst_12 : Ref sig .tc).space ≠ .host) (h3 : (main_cst_12 : Ref sig .tc).isScoped = false) (v : (⟨S_, .f32⟩ : BufTy).Contents (Elt F)) :
    (TRef.of (T := ⟨S_, .f32⟩) main_cst_12 h1 h2 h3).toBuf v = v := rfl
theorem ofBuf_main_call2_v0 (h1 : (main_call2_v0 : Ref sig .tc).ty = (⟨S_, .f32⟩ : BufTy)) (h2 : (main_call2_v0 : Ref sig .tc).space ≠ .host) (h3 : (main_call2_v0 : Ref sig .tc).isScoped = false) (v : (main_call2_v0 : Ref sig .tc).ty.Contents (Elt F)) :
    (TRef.of (T := ⟨S_, .f32⟩) main_call2_v0 h1 h2 h3).ofBuf v = v := rfl
theorem toBuf_main_call2_v0 (h1 : (main_call2_v0 : Ref sig .tc).ty = (⟨S_, .f32⟩ : BufTy)) (h2 : (main_call2_v0 : Ref sig .tc).space ≠ .host) (h3 : (main_call2_v0 : Ref sig .tc).isScoped = false) (v : (⟨S_, .f32⟩ : BufTy).Contents (Elt F)) :
    (TRef.of (T := ⟨S_, .f32⟩) main_call2_v0 h1 h2 h3).toBuf v = v := rfl
theorem ofBuf_main_call2_v1 (h1 : (main_call2_v1 : Ref sig .tc).ty = (⟨S100000, .f32⟩ : BufTy)) (h2 : (main_call2_v1 : Ref sig .tc).space ≠ .host) (h3 : (main_call2_v1 : Ref sig .tc).isScoped = false) (v : (main_call2_v1 : Ref sig .tc).ty.Contents (Elt F)) :
    (TRef.of (T := ⟨S100000, .f32⟩) main_call2_v1 h1 h2 h3).ofBuf v = v := rfl
theorem toBuf_main_call2_v1 (h1 : (main_call2_v1 : Ref sig .tc).ty = (⟨S100000, .f32⟩ : BufTy)) (h2 : (main_call2_v1 : Ref sig .tc).space ≠ .host) (h3 : (main_call2_v1 : Ref sig .tc).isScoped = false) (v : (⟨S100000, .f32⟩ : BufTy).Contents (Elt F)) :
    (TRef.of (T := ⟨S100000, .f32⟩) main_call2_v1 h1 h2 h3).toBuf v = v := rfl
theorem ofBuf_main_v54 (h1 : (main_v54 : Ref sig .tc).ty = (⟨S100000, .i1⟩ : BufTy)) (h2 : (main_v54 : Ref sig .tc).space ≠ .host) (h3 : (main_v54 : Ref sig .tc).isScoped = false) (v : (main_v54 : Ref sig .tc).ty.Contents (Elt F)) :
    (TRef.of (T := ⟨S100000, .i1⟩) main_v54 h1 h2 h3).ofBuf v = v := rfl
theorem toBuf_main_v54 (h1 : (main_v54 : Ref sig .tc).ty = (⟨S100000, .i1⟩ : BufTy)) (h2 : (main_v54 : Ref sig .tc).space ≠ .host) (h3 : (main_v54 : Ref sig .tc).isScoped = false) (v : (⟨S100000, .i1⟩ : BufTy).Contents (Elt F)) :
    (TRef.of (T := ⟨S100000, .i1⟩) main_v54 h1 h2 h3).toBuf v = v := rfl
theorem ofBuf_main_v55 (h1 : (main_v55 : Ref sig .tc).ty = (⟨S100000, .f32⟩ : BufTy)) (h2 : (main_v55 : Ref sig .tc).space ≠ .host) (h3 : (main_v55 : Ref sig .tc).isScoped = false) (v : (main_v55 : Ref sig .tc).ty.Contents (Elt F)) :
    (TRef.of (T := ⟨S100000, .f32⟩) main_v55 h1 h2 h3).ofBuf v = v := rfl
theorem toBuf_main_v55 (h1 : (main_v55 : Ref sig .tc).ty = (⟨S100000, .f32⟩ : BufTy)) (h2 : (main_v55 : Ref sig .tc).space ≠ .host) (h3 : (main_v55 : Ref sig .tc).isScoped = false) (v : (⟨S100000, .f32⟩ : BufTy).Contents (Elt F)) :
    (TRef.of (T := ⟨S100000, .f32⟩) main_v55 h1 h2 h3).toBuf v = v := rfl
theorem ofBuf_main_v56 (h1 : (main_v56 : Ref sig .tc).ty = (⟨S100000, .f32⟩ : BufTy)) (h2 : (main_v56 : Ref sig .tc).space ≠ .host) (h3 : (main_v56 : Ref sig .tc).isScoped = false) (v : (main_v56 : Ref sig .tc).ty.Contents (Elt F)) :
    (TRef.of (T := ⟨S100000, .f32⟩) main_v56 h1 h2 h3).ofBuf v = v := rfl
theorem toBuf_main_v56 (h1 : (main_v56 : Ref sig .tc).ty = (⟨S100000, .f32⟩ : BufTy)) (h2 : (main_v56 : Ref sig .tc).space ≠ .host) (h3 : (main_v56 : Ref sig .tc).isScoped = false) (v : (⟨S100000, .f32⟩ : BufTy).Contents (Elt F)) :
    (TRef.of (T := ⟨S100000, .f32⟩) main_v56 h1 h2 h3).toBuf v = v := rfl
theorem ofBuf_main_call3_cst (h1 : (main_call3_cst : Ref sig .tc).ty = (⟨S_, .f32⟩ : BufTy)) (h2 : (main_call3_cst : Ref sig .tc).space ≠ .host) (h3 : (main_call3_cst : Ref sig .tc).isScoped = false) (v : (main_call3_cst : Ref sig .tc).ty.Contents (Elt F)) :
    (TRef.of (T := ⟨S_, .f32⟩) main_call3_cst h1 h2 h3).ofBuf v = v := rfl
theorem toBuf_main_call3_cst (h1 : (main_call3_cst : Ref sig .tc).ty = (⟨S_, .f32⟩ : BufTy)) (h2 : (main_call3_cst : Ref sig .tc).space ≠ .host) (h3 : (main_call3_cst : Ref sig .tc).isScoped = false) (v : (⟨S_, .f32⟩ : BufTy).Contents (Elt F)) :
    (TRef.of (T := ⟨S_, .f32⟩) main_call3_cst h1 h2 h3).toBuf v = v := rfl
theorem ofBuf_main_v87 (h1 : (main_v87 : Ref sig .tc).ty = (⟨S100000x64, .f32⟩ : BufTy)) (h2 : (main_v87 : Ref sig .tc).space ≠ .host) (h3 : (main_v87 : Ref sig .tc).isScoped = false) (v : (main_v87 : Ref sig .tc).ty.Contents (Elt F)) :
    (TRef.of (T := ⟨S100000x64, .f32⟩) main_v87 h1 h2 h3).ofBuf v = v := rfl
theorem toBuf_main_v87 (h1 : (main_v87 : Ref sig .tc).ty = (⟨S100000x64, .f32⟩ : BufTy)) (h2 : (main_v87 : Ref sig .tc).space ≠ .host) (h3 : (main_v87 : Ref sig .tc).isScoped = false) (v : (⟨S100000x64, .f32⟩ : BufTy).Contents (Elt F)) :
    (TRef.of (T := ⟨S100000x64, .f32⟩) main_v87 h1 h2 h3).toBuf v = v := rfl
theorem ofBuf_main_call3_v0 (h1 : (main_call3_v0 : Ref sig .tc).ty = (⟨S100000, .f32⟩ : BufTy)) (h2 : (main_call3_v0 : Ref sig .tc).space ≠ .host) (h3 : (main_call3_v0 : Ref sig .tc).isScoped = false) (v : (main_call3_v0 : Ref sig .tc).ty.Contents (Elt F)) :
    (TRef.of (T := ⟨S100000, .f32⟩) main_call3_v0 h1 h2 h3).ofBuf v = v := rfl
theorem toBuf_main_call3_v0 (h1 : (main_call3_v0 : Ref sig .tc).ty = (⟨S100000, .f32⟩ : BufTy)) (h2 : (main_call3_v0 : Ref sig .tc).space ≠ .host) (h3 : (main_call3_v0 : Ref sig .tc).isScoped = false) (v : (⟨S100000, .f32⟩ : BufTy).Contents (Elt F)) :
    (TRef.of (T := ⟨S100000, .f32⟩) main_call3_v0 h1 h2 h3).toBuf v = v := rfl
theorem ofBuf_main_call3_cst_0 (h1 : (main_call3_cst_0 : Ref sig .tc).ty = (⟨S_, .f32⟩ : BufTy)) (h2 : (main_call3_cst_0 : Ref sig .tc).space ≠ .host) (h3 : (main_call3_cst_0 : Ref sig .tc).isScoped = false) (v : (main_call3_cst_0 : Ref sig .tc).ty.Contents (Elt F)) :
    (TRef.of (T := ⟨S_, .f32⟩) main_call3_cst_0 h1 h2 h3).ofBuf v = v := rfl
theorem toBuf_main_call3_cst_0 (h1 : (main_call3_cst_0 : Ref sig .tc).ty = (⟨S_, .f32⟩ : BufTy)) (h2 : (main_call3_cst_0 : Ref sig .tc).space ≠ .host) (h3 : (main_call3_cst_0 : Ref sig .tc).isScoped = false) (v : (⟨S_, .f32⟩ : BufTy).Contents (Elt F)) :
    (TRef.of (T := ⟨S_, .f32⟩) main_call3_cst_0 h1 h2 h3).toBuf v = v := rfl
theorem ofBuf_main_call3_v1 (h1 : (main_call3_v1 : Ref sig .tc).ty = (⟨S100000, .f32⟩ : BufTy)) (h2 : (main_call3_v1 : Ref sig .tc).space ≠ .host) (h3 : (main_call3_v1 : Ref sig .tc).isScoped = false) (v : (main_call3_v1 : Ref sig .tc).ty.Contents (Elt F)) :
    (TRef.of (T := ⟨S100000, .f32⟩) main_call3_v1 h1 h2 h3).ofBuf v = v := rfl
theorem toBuf_main_call3_v1 (h1 : (main_call3_v1 : Ref sig .tc).ty = (⟨S100000, .f32⟩ : BufTy)) (h2 : (main_call3_v1 : Ref sig .tc).space ≠ .host) (h3 : (main_call3_v1 : Ref sig .tc).isScoped = false) (v : (⟨S100000, .f32⟩ : BufTy).Contents (Elt F)) :
    (TRef.of (T := ⟨S100000, .f32⟩) main_call3_v1 h1 h2 h3).toBuf v = v := rfl
theorem ofBuf_main_call3_v2 (h1 : (main_call3_v2 : Ref sig .tc).ty = (⟨S100000, .f32⟩ : BufTy)) (h2 : (main_call3_v2 : Ref sig .tc).space ≠ .host) (h3 : (main_call3_v2 : Ref sig .tc).isScoped = false) (v : (main_call3_v2 : Ref sig .tc).ty.Contents (Elt F)) :
    (TRef.of (T := ⟨S100000, .f32⟩) main_call3_v2 h1 h2 h3).ofBuf v = v := rfl
theorem toBuf_main_call3_v2 (h1 : (main_call3_v2 : Ref sig .tc).ty = (⟨S100000, .f32⟩ : BufTy)) (h2 : (main_call3_v2 : Ref sig .tc).space ≠ .host) (h3 : (main_call3_v2 : Ref sig .tc).isScoped = false) (v : (⟨S100000, .f32⟩ : BufTy).Contents (Elt F)) :
    (TRef.of (T := ⟨S100000, .f32⟩) main_call3_v2 h1 h2 h3).toBuf v = v := rfl
theorem ofBuf_main_call3_v3 (h1 : (main_call3_v3 : Ref sig .tc).ty = (⟨S100000x1, .f32⟩ : BufTy)) (h2 : (main_call3_v3 : Ref sig .tc).space ≠ .host) (h3 : (main_call3_v3 : Ref sig .tc).isScoped = false) (v : (main_call3_v3 : Ref sig .tc).ty.Contents (Elt F)) :
    (TRef.of (T := ⟨S100000x1, .f32⟩) main_call3_v3 h1 h2 h3).ofBuf v = v := rfl
theorem toBuf_main_call3_v3 (h1 : (main_call3_v3 : Ref sig .tc).ty = (⟨S100000x1, .f32⟩ : BufTy)) (h2 : (main_call3_v3 : Ref sig .tc).space ≠ .host) (h3 : (main_call3_v3 : Ref sig .tc).isScoped = false) (v : (⟨S100000x1, .f32⟩ : BufTy).Contents (Elt F)) :
    (TRef.of (T := ⟨S100000x1, .f32⟩) main_call3_v3 h1 h2 h3).toBuf v = v := rfl
theorem ofBuf_main_call3_v4 (h1 : (main_call3_v4 : Ref sig .tc).ty = (⟨S100000x64, .f32⟩ : BufTy)) (h2 : (main_call3_v4 : Ref sig .tc).space ≠ .host) (h3 : (main_call3_v4 : Ref sig .tc).isScoped = false) (v : (main_call3_v4 : Ref sig .tc).ty.Contents (Elt F)) :
    (TRef.of (T := ⟨S100000x64, .f32⟩) main_call3_v4 h1 h2 h3).ofBuf v = v := rfl
theorem toBuf_main_call3_v4 (h1 : (main_call3_v4 : Ref sig .tc).ty = (⟨S100000x64, .f32⟩ : BufTy)) (h2 : (main_call3_v4 : Ref sig .tc).space ≠ .host) (h3 : (main_call3_v4 : Ref sig .tc).isScoped = false) (v : (⟨S100000x64, .f32⟩ : BufTy).Contents (Elt F)) :
    (TRef.of (T := ⟨S100000x64, .f32⟩) main_call3_v4 h1 h2 h3).toBuf v = v := rfl
theorem ofBuf_main_call3_v5 (h1 : (main_call3_v5 : Ref sig .tc).ty = (⟨S100000x64, .f32⟩ : BufTy)) (h2 : (main_call3_v5 : Ref sig .tc).space ≠ .host) (h3 : (main_call3_v5 : Ref sig .tc).isScoped = false) (v : (main_call3_v5 : Ref sig .tc).ty.Contents (Elt F)) :
    (TRef.of (T := ⟨S100000x64, .f32⟩) main_call3_v5 h1 h2 h3).ofBuf v = v := rfl
theorem toBuf_main_call3_v5 (h1 : (main_call3_v5 : Ref sig .tc).ty = (⟨S100000x64, .f32⟩ : BufTy)) (h2 : (main_call3_v5 : Ref sig .tc).space ≠ .host) (h3 : (main_call3_v5 : Ref sig .tc).isScoped = false) (v : (⟨S100000x64, .f32⟩ : BufTy).Contents (Elt F)) :
    (TRef.of (T := ⟨S100000x64, .f32⟩) main_call3_v5 h1 h2 h3).toBuf v = v := rfl
theorem ofBuf_main_call3_v6 (h1 : (main_call3_v6 : Ref sig .tc).ty = (⟨S100000x64, .f32⟩ : BufTy)) (h2 : (main_call3_v6 : Ref sig .tc).space ≠ .host) (h3 : (main_call3_v6 : Ref sig .tc).isScoped = false) (v : (main_call3_v6 : Ref sig .tc).ty.Contents (Elt F)) :
    (TRef.of (T := ⟨S100000x64, .f32⟩) main_call3_v6 h1 h2 h3).ofBuf v = v := rfl
theorem toBuf_main_call3_v6 (h1 : (main_call3_v6 : Ref sig .tc).ty = (⟨S100000x64, .f32⟩ : BufTy)) (h2 : (main_call3_v6 : Ref sig .tc).space ≠ .host) (h3 : (main_call3_v6 : Ref sig .tc).isScoped = false) (v : (⟨S100000x64, .f32⟩ : BufTy).Contents (Elt F)) :
    (TRef.of (T := ⟨S100000x64, .f32⟩) main_call3_v6 h1 h2 h3).toBuf v = v := rfl
theorem ofBuf_main_call3_cst_1 (h1 : (main_call3_cst_1 : Ref sig .tc).ty = (⟨S_, .f32⟩ : BufTy)) (h2 : (main_call3_cst_1 : Ref sig .tc).space ≠ .host) (h3 : (main_call3_cst_1 : Ref sig .tc).isScoped = false) (v : (main_call3_cst_1 : Ref sig .tc).ty.Contents (Elt F)) :
    (TRef.of (T := ⟨S_, .f32⟩) main_call3_cst_1 h1 h2 h3).ofBuf v = v := rfl
theorem toBuf_main_call3_cst_1 (h1 : (main_call3_cst_1 : Ref sig .tc).ty = (⟨S_, .f32⟩ : BufTy)) (h2 : (main_call3_cst_1 : Ref sig .tc).space ≠ .host) (h3 : (main_call3_cst_1 : Ref sig .tc).isScoped = false) (v : (⟨S_, .f32⟩ : BufTy).Contents (Elt F)) :
    (TRef.of (T := ⟨S_, .f32⟩) main_call3_cst_1 h1 h2 h3).toBuf v = v := rfl
theorem ofBuf_main_call3_v7 (h1 : (main_call3_v7 : Ref sig .tc).ty = (⟨S100000, .f32⟩ : BufTy)) (h2 : (main_call3_v7 : Ref sig .tc).space ≠ .host) (h3 : (main_call3_v7 : Ref sig .tc).isScoped = false) (v : (main_call3_v7 : Ref sig .tc).ty.Contents (Elt F)) :
    (TRef.of (T := ⟨S100000, .f32⟩) main_call3_v7 h1 h2 h3).ofBuf v = v := rfl
theorem toBuf_main_call3_v7 (h1 : (main_call3_v7 : Ref sig .tc).ty = (⟨S100000, .f32⟩ : BufTy)) (h2 : (main_call3_v7 : Ref sig .tc).space ≠ .host) (h3 : (main_call3_v7 : Ref sig .tc).isScoped = false) (v : (⟨S100000, .f32⟩ : BufTy).Contents (Elt F)) :
    (TRef.of (T := ⟨S100000, .f32⟩) main_call3_v7 h1 h2 h3).toBuf v = v := rfl
theorem ofBuf_main_call3_v8 (h1 : (main_call3_v8 : Ref sig .tc).ty = (⟨S100000x1, .f32⟩ : BufTy)) (h2 : (main_call3_v8 : Ref sig .tc).space ≠ .host) (h3 : (main_call3_v8 : Ref sig .tc).isScoped = false) (v : (main_call3_v8 : Ref sig .tc).ty.Contents (Elt F)) :
    (TRef.of (T := ⟨S100000x1, .f32⟩) main_call3_v8 h1 h2 h3).ofBuf v = v := rfl
theorem toBuf_main_call3_v8 (h1 : (main_call3_v8 : Ref sig .tc).ty = (⟨S100000x1, .f32⟩ : BufTy)) (h2 : (main_call3_v8 : Ref sig .tc).space ≠ .host) (h3 : (main_call3_v8 : Ref sig .tc).isScoped = false) (v : (⟨S100000x1, .f32⟩ : BufTy).Contents (Elt F)) :
    (TRef.of (T := ⟨S100000x1, .f32⟩) main_call3_v8 h1 h2 h3).toBuf v = v := rfl
theorem ofBuf_main_call3_v9 (h1 : (main_call3_v9 : Ref sig .tc).ty = (⟨S100000x1, .f32⟩ : BufTy)) (h2 : (main_call3_v9 : Ref sig .tc).space ≠ .host) (h3 : (main_call3_v9 : Ref sig .tc).isScoped = false) (v : (main_call3_v9 : Ref sig .tc).ty.Contents (Elt F)) :
    (TRef.of (T := ⟨S100000x1, .f32⟩) main_call3_v9 h1 h2 h3).ofBuf v = v := rfl
theorem toBuf_main_call3_v9 (h1 : (main_call3_v9 : Ref sig .tc).ty = (⟨S100000x1, .f32⟩ : BufTy)) (h2 : (main_call3_v9 : Ref sig .tc).space ≠ .host) (h3 : (main_call3_v9 : Ref sig .tc).isScoped = false) (v : (⟨S100000x1, .f32⟩ : BufTy).Contents (Elt F)) :
    (TRef.of (T := ⟨S100000x1, .f32⟩) main_call3_v9 h1 h2 h3).toBuf v = v := rfl
theorem ofBuf_main_call3_v10 (h1 : (main_call3_v10 : Ref sig .tc).ty = (⟨S100000x64, .f32⟩ : BufTy)) (h2 : (main_call3_v10 : Ref sig .tc).space ≠ .host) (h3 : (main_call3_v10 : Ref sig .tc).isScoped = false) (v : (main_call3_v10 : Ref sig .tc).ty.Contents (Elt F)) :
    (TRef.of (T := ⟨S100000x64, .f32⟩) main_call3_v10 h1 h2 h3).ofBuf v = v := rfl
theorem toBuf_main_call3_v10 (h1 : (main_call3_v10 : Ref sig .tc).ty = (⟨S100000x64, .f32⟩ : BufTy)) (h2 : (main_call3_v10 : Ref sig .tc).space ≠ .host) (h3 : (main_call3_v10 : Ref sig .tc).isScoped = false) (v : (⟨S100000x64, .f32⟩ : BufTy).Contents (Elt F)) :
    (TRef.of (T := ⟨S100000x64, .f32⟩) main_call3_v10 h1 h2 h3).toBuf v = v := rfl
theorem ofBuf_main_v88 (h1 : (main_v88 : Ref sig .tc).ty = (⟨S100000x64, .f32⟩ : BufTy)) (h2 : (main_v88 : Ref sig .tc).space ≠ .host) (h3 : (main_v88 : Ref sig .tc).isScoped = false) (v : (main_v88 : Ref sig .tc).ty.Contents (Elt F)) :
    (TRef.of (T := ⟨S100000x64, .f32⟩) main_v88 h1 h2 h3).ofBuf v = v := rfl
theorem toBuf_main_v88 (h1 : (main_v88 : Ref sig .tc).ty = (⟨S100000x64, .f32⟩ : BufTy)) (h2 : (main_v88 : Ref sig .tc).space ≠ .host) (h3 : (main_v88 : Ref sig .tc).isScoped = false) (v : (⟨S100000x64, .f32⟩ : BufTy).Contents (Elt F)) :
    (TRef.of (T := ⟨S100000x64, .f32⟩) main_v88 h1 h2 h3).toBuf v = v := rfl

set_option maxRecDepth 8192 in
set_option maxHeartbeats 52400000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = Cert.Gcn.Ref.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (by
        after_results_simp
        simp only [Cert.Lib.TypedRefs.ofBuf_toBuf, Cert.Lib.TypedRefs.toBuf_ofBuf]
        simp only [ofBuf_main_cst_2, toBuf_main_cst_2, ofBuf_main_call0_v0, toBuf_main_call0_v0, ofBuf_main_call0_v1, toBuf_main_call0_v1, ofBuf_main_v13, toBuf_main_v13, ofBuf_main_v14, toBuf_main_v14, ofBuf_main_v15, toBuf_main_v15, ofBuf_main_call1_cst, toBuf_main_call1_cst, ofBuf_main_call1_v0, toBuf_main_call1_v0, ofBuf_main_v46, toBuf_main_v46, ofBuf_main_v47, toBuf_main_v47, ofBuf_main_cst_12, toBuf_main_cst_12, ofBuf_main_call2_v0, toBuf_main_call2_v0, ofBuf_main_call2_v1, toBuf_main_call2_v1, ofBuf_main_v54, toBuf_main_v54, ofBuf_main_v55, toBuf_main_v55, ofBuf_main_v56, toBuf_main_v56, ofBuf_main_call3_cst, toBuf_main_call3_cst, ofBuf_main_v87, toBuf_main_v87, ofBuf_main_call3_v0, toBuf_main_call3_v0, ofBuf_main_call3_cst_0, toBuf_main_call3_cst_0, ofBuf_main_call3_v1, toBuf_main_call3_v1, ofBuf_main_call3_v2, toBuf_main_call3_v2, ofBuf_main_call3_v3, toBuf_main_call3_v3, ofBuf_main_call3_v4, toBuf_main_call3_v4, ofBuf_main_call3_v5, toBuf_main_call3_v5, ofBuf_main_call3_v6, toBuf_main_call3_v6, ofBuf_main_call3_cst_1, toBuf_main_call3_cst_1, ofBuf_main_call3_v7, toBuf_main_call3_v7, ofBuf_main_call3_v8, toBuf_main_call3_v8, ofBuf_main_call3_v9, toBuf_main_call3_v9, ofBuf_main_call3_v10, toBuf_main_call3_v10, ofBuf_main_v88, toBuf_main_v88]
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Gcn.RefRun

end
-- ==== Proof.RefLsm.lean ====
/-
  The reference's log-softmax at an entry: for a 100000 × 64 matrix z, entry (p, q) of the host's chain is
  (z (p, q) − M) − log Σ_k exp (z (p, k) − M), M the largest entry of row p (from −∞).
-/
import proofs.«162010_j46986942218822_1_alg».proof.Proof.RefSpec
import proofs.«162010_j46986942218822_1_alg».proof.Proof.LibHostDot
import proofs.«162010_j46986942218822_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.RefLsm

open Cert.ReferenceIdeal Cert.ReferenceIdeal.Gen
open Idealize.ShloMosaic Idealize.ShloMosaic.ValueIdx

/-- The largest entry of row p (from −∞). -/
def rowMax (z : FVec Ideal S100000x64 .f32) (p : Fin 100000) : EReal :=
  (Finset.univ : Finset (Fin 64)).fold max (Ideal.ofBits .f32 0xFF800000#32) (fun k => z (ix2 p k))

/-- The host's exponential of an array of extended reals, at an index. -/
private theorem hexp_at {s : Shape} {φ : FTy} (a : FVec Ideal s φ) (i : s.Idx) : Host.exp a i = Ideal.exp (a i) := rfl

/-- The host's logarithm of an array of extended reals, at an index. -/
private theorem hlog_at {s : Shape} {φ : FTy} (a : FVec Ideal s φ) (i : s.Idx) : Host.log a i = Ideal.log (a i) := rfl

/-- A vector [a] stood up as a column [a, 1] by a broadcast along axis 0: entry (p, ·) is the vector's entry p. -/
private theorem bcast_a_a1 {α : Type} {a : ℕ} (y : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h y (ix2 p u) = y (ix1 p) := by
  refine broadcastInDim_apply _ h y (ix2 p u) (ix1 p) fun ax => ?_
  match ax with
  | ⟨0, _⟩ =>
    show p.val = if a = 1 then 0 else p.val
    split
    · have := p.isLt; omega
    · rfl

/-- A column [a, 1] repeated along the rows to [a, b] by a broadcast along both axes: entry (p, q) is the column's
    entry at row p. -/
private theorem bcast_a1_ab {α : Type} {a b : ℕ} (y : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h y (ix2 p q) = y (ix2 p (0 : Fin 1)) := by
  refine broadcastInDim_apply _ h y (ix2 p q) (ix2 p (0 : Fin 1)) fun ax => ?_
  match ax with
  | ⟨0, _⟩ =>
    show p.val = if a = 1 then 0 else p.val
    split
    · have := p.isLt; omega
    · rfl
  | ⟨1, _⟩ => rfl

/-- The host's maximum over axis 1 of an [a, b] matrix, from a splat word: entry p is the fold of max over row p,
    started at the word's value. -/
private theorem host_rowmax {a b : ℕ} {u : Shape} (z : FVec Ideal ⟨2, ![a, b]⟩ .f32) (w : BitVec 32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (max : EReal → EReal → EReal) z (constant (F := Ideal) u .f32 w) h' hu (ix1 p)
      = (Finset.univ : Finset (Fin b)).fold max (Ideal.ofBits .f32 w) (fun k => z (ix2 p k)) := by
  refine (Host.reduce_eq_fold_single max z (constant (F := Ideal) u .f32 w) h' h hu (ix1 p)).trans ?_
  refine Finset.fold_congr fun k _ => congrArg z (funext fun c => Fin.ext ?_)
  rw [h.lift_val]
  match c with
  | ⟨0, _⟩ => rfl
  | ⟨1, _⟩ => rfl

/-- The host's sum over axis 1 of an [a, b] matrix, from the zero word: entry p is the sum of row p. -/
private theorem host_rowsum {a b : ℕ} {u : Shape} (e : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) e (constant (F := Ideal) u .f32 0x00000000#32) h' hu (ix1 p)
      = ∑ k : Fin b, e (ix2 p k) := by
  refine (Ideal.hostReduceAdd_single h' h e (Ideal.ofBits .f32 0x00000000#32) (ix1 p)).trans ?_
  rw [Ideal.ofBits_zero_f32, zero_add]
  refine Finset.sum_congr rfl fun k _ => congrArg e (funext fun c => Fin.ext ?_)
  rw [h.lift_val]
  match c with
  | ⟨0, _⟩ => rfl
  | ⟨1, _⟩ => rfl

/-- The reference's repeated row maximum at an entry of row p: the outer maximum with −∞ changes nothing, the fold
    starting there. -/
private theorem rowMaxB_entry (z : FVec Ideal S100000x64 .f32) (p : Fin 100000) (k : Fin 64) :
    Cert.Gcn.Ref.rowMaxB (F := Ideal) z (ix2 p k) = rowMax z p := by
  refine (bcast_a1_ab _ bcast_S100000x1_S100000x64_0_1 p k).trans ?_
  refine (bcast_a_a1 _ bcast_S100000_S100000x1_0 p (0 : Fin 1)).trans ?_
  refine (maximumf_apply _ _ _).trans ?_
  refine (congrArg (fun m : EReal => max (Ideal.ofBits .f32 0xFF800000#32) m)
    (host_rowmax z 0xFF800000#32 reducesTo_S100000x64_S100000_d1 (by decide) h_S_ p)).trans ?_
  exact max_eq_right ((Finset.le_fold_max _).mpr (Or.inl le_rfl))

/-- The host's log-softmax chain at entry (p, q). -/
theorem lsmHost_entry (z : FVec Ideal S100000x64 .f32) (p : Fin 100000) (q : Fin 64) :
    Cert.Gcn.Ref.lsmHost (F := Ideal) z (ix2 p q)
      = (z (ix2 p q) - rowMax z p) - Ideal.log (∑ k : Fin 64, Ideal.exp (z (ix2 p k) - rowMax z p)) := by
  have hd : ∀ k : Fin 64, subf z (Cert.Gcn.Ref.rowMaxB z) (ix2 p k) = z (ix2 p k) - rowMax z p := fun k =>
    (subf_apply _ _ _).trans (congrArg (fun m : EReal => z (ix2 p k) - m) (rowMaxB_entry z p k))
  have hs : ∀ k : Fin 64, Host.exp (subf z (Cert.Gcn.Ref.rowMaxB z)) (ix2 p k)
      = Ideal.exp (z (ix2 p k) - rowMax z p) := fun k => (hexp_at _ _).trans (congrArg Ideal.exp (hd k))
  refine (subf_apply _ _ _).trans ?_
  refine congrArg₂ (fun a b : EReal => a - b) (hd q) ?_
  refine (bcast_a1_ab _ bcast_S100000x1_S100000x64_0_1 p q).trans ((hlog_at _ _).trans (congrArg Ideal.log ?_))
  refine (bcast_a_a1 _ bcast_S100000_S100000x1_0 p (0 : Fin 1)).trans ?_
  exact (host_rowsum _ reducesTo_S100000x64_S100000_d1 (by decide) h_S_ p).trans
    (Finset.sum_congr rfl fun k _ => hs k)

end Cert.Gcn.RefLsm

end
-- ==== Proof.RefValue.lean ====
/-
  The reference computes the common function: its host spelling of the two rounds, read entry by entry where it is dense
  and carried whole where it follows the edges, is the specification's.
-/
import proofs.«162010_j46986942218822_1_alg».proof.Proof.RefSpec
import proofs.«162010_j46986942218822_1_alg».proof.Proof.Spec
import proofs.«162010_j46986942218822_1_alg».proof.Proof.RefLsm
import proofs.«162010_j46986942218822_1_alg».proof.Proof.LibDenseBias
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.RefValue

open Idealize.ShloMosaic Idealize.ShloMosaic.ValueIdx

/-! ## The edges

The two programs name the same shapes and the same side conditions; the edge-following functions are spelt with the same
whole-array operations over them, so the reference's and the specification's are the same terms. -/

section Edges

variable {F : FTy → Type} [FloatOps F]

/-- A round over 128 columns is the same function in both spellings. -/
theorem agg128_eq (h : FVec F Cert.ReferenceIdeal.S100000x128 .f32) (x1 : IVec Cert.ReferenceIdeal.S2x1600000 32) :
    Cert.Gcn.Ref.agg128 h x1 = Cert.Gcn.agg128 h x1 := rfl

/-- A round over 64 columns is the same function in both spellings. -/
theorem agg64_eq (h : FVec F Cert.ReferenceIdeal.S100000x64 .f32) (x1 : IVec Cert.ReferenceIdeal.S2x1600000 32) :
    Cert.Gcn.Ref.agg64 h x1 = Cert.Gcn.agg64 h x1 := rfl

end Edges

/-! ## The products -/

/-- The host's 100000 × 128 by 128 × 128 product is the entrywise sum of products. -/
theorem mm128_eq (x0 : FVec Ideal Cert.ReferenceIdeal.S100000x128 .f32) (x2 : FVec Ideal Cert.ReferenceIdeal.S128x128 .f32) :
    Host.dotGeneral Cert.ReferenceIdeal.dot_S100000x128_S128x128_S100000x128_1_0_0_1_n_n none x0 x2
      = Cert.Gcn.mm128 x0 x2 := by
  funext i
  obtain ⟨p, q, rfl⟩ : ∃ (p : Fin 100000) (q : Fin 128), i = ix2 p q := ⟨i 0, i 1, eq_ix2 i⟩
  exact Cert.Lib.DenseBias.dense_host_entry (M := 100000) (K := 128) (N := 128) x0 x2 p q

/-- The host's 100000 × 128 by 128 × 64 product is the entrywise sum of products. -/
theorem mm64_eq (x : FVec Ideal Cert.ReferenceIdeal.S100000x128 .f32) (x4 : FVec Ideal Cert.ReferenceIdeal.S128x64 .f32) :
    Host.dotGeneral Cert.ReferenceIdeal.dot_S100000x128_S128x64_S100000x64_1_0_0_1_n_n none x x4
      = Cert.Gcn.mm64 x x4 := by
  funext i
  obtain ⟨p, q, rfl⟩ : ∃ (p : Fin 100000) (q : Fin 64), i = ix2 p q := ⟨i 0, i 1, eq_ix2 i⟩
  exact Cert.Lib.DenseBias.dense_host_entry (M := 100000) (K := 128) (N := 64) x x4 p q

/-! ## The bias steps -/

/-- A vector [b] laid as the one-row matrix [1, b] along the last axis: entry (0, q) of the row is entry q of the vector. -/
theorem bias_row_entry {α : Type} {b : ℕ} (x : (⟨1, ![b]⟩ : Shape).Idx → α)
    (h2 : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h2 x (ix2 u q) = x (ix1 q) := by
  refine broadcastInDim_apply _ h2 x (ix2 u q) (ix1 q) fun ax => ?_
  match ax with
  | ⟨0, _⟩ =>
    show q.val = if b = 1 then 0 else q.val
    split
    · have := q.isLt; omega
    · rfl

/-- The first layer: the reference's max (round (x0 · x2) + bias rows, 0) is the specification's, entry by entry. -/
theorem hidden_eq (x0 : FVec Ideal Cert.ReferenceIdeal.S100000x128 .f32) (x1 : IVec Cert.ReferenceIdeal.S2x1600000 32)
    (x2 : FVec Ideal Cert.ReferenceIdeal.S128x128 .f32) (x3 : FVec Ideal Cert.ReferenceIdeal.S128 .f32) :
    Cert.Gcn.Ref.hidden x0 x1 x2 x3 = Cert.Gcn.brelu (Cert.Gcn.agg128 (Cert.Gcn.mm128 x0 x2) x1) x3 := by
  unfold Cert.Gcn.Ref.hidden Cert.Gcn.Ref.biasRows128
  rw [mm128_eq, agg128_eq]
  funext i
  obtain ⟨p, q, rfl⟩ : ∃ (p : Fin 100000) (q : Fin 128), i = ix2 p q := ⟨i 0, i 1, eq_ix2 i⟩
  refine (Cert.Lib.DenseBias.bias_relu_host_entry (a := 100000) (b := 128) _ _ _ _ p q).trans ?_
  exact congrArg
    (fun t => max (Cert.Gcn.agg128 (Cert.Gcn.mm128 x0 x2) x1 (ix2 p q) + t) (Ideal.ofBits .f32 0x00000000#32))
    (bias_row_entry x3 _ 0 q)

/-! ## The last step -/

/-- Entry (p, k) of (second round) + bias rows is the specification's z. -/
theorem z_entry (B : FVec Ideal Cert.ReferenceIdeal.S100000x64 .f32) (x5 : FVec Ideal Cert.ReferenceIdeal.S64 .f32)
    (p : Fin 100000) (k : Fin 64) :
    addf B (Cert.Gcn.Ref.biasRows64 x5) (ix2 p k) = Cert.Gcn.zE B x5 p k := by
  unfold Cert.Gcn.Ref.biasRows64
  refine (Cert.Lib.DenseBias.bias_host_entry (a := 100000) (b := 64) B _ _ p k).trans ?_
  exact congrArg (fun t => B (ix2 p k) + t) (bias_row_entry x5 _ 0 k)

/-- The largest entry of row p of (second round) + bias rows is the specification's row maximum. -/
theorem rowMax_entry (B : FVec Ideal Cert.ReferenceIdeal.S100000x64 .f32) (x5 : FVec Ideal Cert.ReferenceIdeal.S64 .f32)
    (p : Fin 100000) :
    Cert.Gcn.RefLsm.rowMax (addf B (Cert.Gcn.Ref.biasRows64 x5)) p = Cert.Gcn.rowMaxE B x5 p := by
  unfold Cert.Gcn.RefLsm.rowMax Cert.Gcn.rowMaxE
  exact Finset.fold_congr fun k _ => z_entry B x5 p k

/-- The reference's log-softmax of (second round) + bias rows is the specification's last step. -/
theorem lsm_eq (B : FVec Ideal Cert.ReferenceIdeal.S100000x64 .f32) (x5 : FVec Ideal Cert.ReferenceIdeal.S64 .f32) :
    Cert.Gcn.Ref.lsmHost (addf B (Cert.Gcn.Ref.biasRows64 x5)) = Cert.Gcn.lsm B x5 := by
  funext i
  obtain ⟨p, q, rfl⟩ : ∃ (p : Fin 100000) (q : Fin 64), i = ix2 p q := ⟨i 0, i 1, eq_ix2 i⟩
  refine (Cert.Gcn.RefLsm.lsmHost_entry _ p q).trans ?_
  show _ = (Cert.Gcn.zE B x5 p q - Cert.Gcn.rowMaxE B x5 p)
      - Ideal.log (∑ k : Fin 64, Ideal.exp (Cert.Gcn.zE B x5 p k - Cert.Gcn.rowMaxE B x5 p))
  rw [rowMax_entry B x5 p, z_entry B x5 p q]
  refine congrArg (fun t => (Cert.Gcn.zE B x5 p q - Cert.Gcn.rowMaxE B x5 p) - Ideal.log t) ?_
  exact Finset.sum_congr rfl fun k _ => by rw [z_entry B x5 p k]

/-! ## The whole function -/

/-- The reference's result is the common function of the six inputs. -/
theorem refOut_eq (x0 : FVec Ideal Cert.ReferenceIdeal.S100000x128 .f32) (x1 : IVec Cert.ReferenceIdeal.S2x1600000 32)
    (x2 : FVec Ideal Cert.ReferenceIdeal.S128x128 .f32) (x3 : FVec Ideal Cert.ReferenceIdeal.S128 .f32)
    (x4 : FVec Ideal Cert.ReferenceIdeal.S128x64 .f32) (x5 : FVec Ideal Cert.ReferenceIdeal.S64 .f32) :
    Cert.Gcn.Ref.refOut (F := Ideal) x0 x1 x2 x3 x4 x5 = Cert.Gcn.out x0 x1 x2 x3 x4 x5 := by
  unfold Cert.Gcn.Ref.refOut Cert.Gcn.out
  rw [hidden_eq, mm64_eq, agg64_eq]
  exact lsm_eq _ x5

end Cert.Gcn.RefValue

end
-- ==== Proof.lean ====
/-
  A two-layer graph convolution on 100000 nodes and 1600000 edges (plus a loop at every node), followed by a row-wise
  log-softmax: the kernel against its reference, on the extended reals.

  Both programs compute, from the node features x, the edge list, and two layers' weights and biases,
      log-softmax ( A · (max (A · (x · W1) + b1, 0) · W2) + b2 ),
  where A is the graph's normalised adjacency: row t of A · h is the sum over the edges into t of
  deg(s)^(-1/2) · deg(t)^(-1/2) times row s of h.  The kernel does the two matrix products, the bias with the maximum
  with zero, and the bias with the log-softmax in four pipelined regions, each tiled in twenty blocks of 5000 rows; the
  degrees, the edge weights and the two sums over edges are host operations between the regions.  The reference does
  everything with host operations on whole arrays.

  Why the two agree exactly.  Narrowing to bf16 before a product changes nothing on the extended reals, and both
  products are the plain sum over the contracted index; an entry of a product, of the bias step, or of a row's
  log-softmax depends on one row of its input only, so twenty blocks of rows are the blocks of one whole-array function
  and fill it.  The sums over edges depend on the edge list's VALUES, but both programs spell them with the same
  operations on the same edge list, so they are carried as one function and never opened: equal inputs give equal
  outputs.  No law of arithmetic that could fail at an infinity is used, so the inputs' finiteness is not needed for
  the equation (it is only the claims' stated precondition).

  The pieces: the common function (Spec) and the reference's spelling of it (RefSpec); each region's array as a
  whole-array function of what the region finds (Region0 … Region3, the last body read in Region3Pay); what each region
  finds, read off the host stretches (KHost); the kernel's result as the common function (KValue) over its run with the
  result named (KRun); the reference's run read back (RefRun) and its spelling identified with the common function
  (RefLsm, RefValue).  The rewriting pass between the kernel and its idealization changed no operation, so that claim
  asks nothing.
-/
import proofs.«162010_j46986942218822_1_alg».proof.Defs
import proofs.«162010_j46986942218822_1_alg».proof.Proof.Gen.Kernel
import proofs.«162010_j46986942218822_1_alg».proof.Proof.Gen.Kernel.Frame
import proofs.«162010_j46986942218822_1_alg».proof.Proof.Gen.KernelIdeal
import proofs.«162010_j46986942218822_1_alg».proof.Proof.Gen.KernelIdeal.Frame
import proofs.«162010_j46986942218822_1_alg».proof.Proof.Gen.ReferenceIdeal
import proofs.«162010_j46986942218822_1_alg».proof.Proof.Gen.Pre_finite_inputs
import proofs.«162010_j46986942218822_1_alg».proof.Proof.KRun
import proofs.«162010_j46986942218822_1_alg».proof.Proof.KValue
import proofs.«162010_j46986942218822_1_alg».proof.Proof.RefRun
import proofs.«162010_j46986942218822_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run read back, the result forgotten. -/
theorem frame_referenceIdeal : Cert.frame_ReferenceIdeal := fun m ρ _ =>
  (θ_run Cert.ReferenceIdeal.defs _ _).mono (fun _ h c => (h c).2) (Cert.Gcn.RefRun.run (F := Ideal) m ρ)

/-- The idealization rewrote no operation of the kernel. -/
theorem preserves : Cert.preserves_Kernel_KernelIdeal := trivial

/-- From memories that agree on the six arguments both programs end with the common function of them in their result
    buffer: the kernel by following its result back through its regions and host stretches, the reference by reading
    its line of host operations. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.KValue.result m ρ c), (h c).2⟩)
      (Cert.Gcn.KRun.run_result (F := Ideal) m ρ)
  · refine (θ_run Cert.ReferenceIdeal.defs _ _).mono (fun r h c => ⟨(h c).1.trans ?_, (h c).2⟩)
      (Cert.Gcn.RefRun.run (F := Ideal) m' ρ')
    rw [Cert.Gcn.RefValue.refOut_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
